-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4x512 : Shape := ⟨3, ![4096, 4, 512]⟩
abbrev S4096x1 : Shape := ⟨2, ![4096, 1]⟩
abbrev S2048x512 : Shape := ⟨2, ![2048, 512]⟩
abbrev S2048 : Shape := ⟨1, ![2048]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x4x512 : S_.BroadcastsInDim S4096x4x512 (![] : Fin 0 → Fin S4096x4x512.rank)
  reducesTo_S4096x4x512_S_d0_1_2 : S4096x4x512.ReducesTo [0, 1, 2] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg8 : FVec F S2048x512 .f32) (main_arg9 : FVec F S2048 .f32) (main_arg10 : FVec F S2048 .f32) (main_v33 : IVec S_ 1) : IVec S_ 1 :=
  let main_v34 : FVec F S2048x512 .f32 := Host.absf main_arg8
  let main_cst_12 : FVec F S_ .f32 := constant S_ .f32 0x7F800000#32
  let main_v35 : FVec F S2048x512 .f32 := broadcastInDim S2048x512 ![] bcast_S_S2048x512 main_cst_12
  let main_v36 : IVec S2048x512 1 := cmpf .olt main_v34 main_v35
  let main_c_13 : IVec S_ 1 := constantI S_ 1 1#1
  let main_v37 : IVec S_ 1 := (fun x v => Host.reduce IntOp.andi x v reducesTo_S2048x512_S_d0_1 h_S_) main_v36 main_c_13
  let main_v38 : IVec S_ 1 := andi main_v33 main_v37
  let main_v39 : FVec F S2048 .f32 := Host.absf main_arg9
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048 .f32 := Host.absf main_arg10
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  main_v48

def fn_part1 {F : FTy → Type} [FloatOps F] (main_arg5 : FVec F S2048 .f32) (main_arg6 : FVec F S2048 .f32) (main_arg7 : FVec F S2048x512 .f32) (main_arg8 : FVec F S2048x512 .f32) (main_arg9 : FVec F S2048 .f32) (main_arg10 : FVec F S2048 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S2048 .f32 := Host.absf main_arg5
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg6
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x512 .f32 := Host.absf main_arg7
  let main_cst_10 : FVec F S_ .f32 := constant S_ .f32 0x7F800000#32
  let main_v30 : FVec F S2048x512 .f32 := broadcastInDim S2048x512 ![] bcast_S_S2048x512 main_cst_10
  let main_v31 : IVec S2048x512 1 := cmpf .olt main_v29 main_v30
  let main_c_11 : IVec S_ 1 := constantI S_ 1 1#1
  let main_v32 : IVec S_ 1 := (fun x v => Host.reduce IntOp.andi x v reducesTo_S2048x512_S_d0_1 h_S_) main_v31 main_c_11
  let main_v33 : IVec S_ 1 := andi main_v28 main_v32
  fn_part2 (F := F) main_arg8 main_arg9 main_arg10 main_v33

def fn {F : FTy → Type} [FloatOps F] (main_arg0 : FVec F S4096x512 .f32) (main_arg1 : FVec F S4096x4x512 .f32) (main_arg2 : IVec S4096x1 1) (main_arg3 : FVec F S2048x512 .f32) (main_arg4 : FVec F S2048x512 .f32) (main_arg5 : FVec F S2048 .f32) (main_arg6 : FVec F S2048 .f32) (main_arg7 : FVec F S2048x512 .f32) (main_arg8 : FVec F S2048x512 .f32) (main_arg9 : FVec F S2048 .f32) (main_arg10 : FVec F S2048 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x4x512 .f32 := Host.absf main_arg1
  let main_cst_0 : FVec F S_ .f32 := constant S_ .f32 0x7F800000#32
  let main_v5 : FVec F S4096x4x512 .f32 := broadcastInDim S4096x4x512 ![] bcast_S_S4096x4x512 main_cst_0
  let main_v6 : IVec S4096x4x512 1 := cmpf .olt main_v4 main_v5
  let main_c_1 : IVec S_ 1 := constantI S_ 1 1#1
  let main_v7 : IVec S_ 1 := (fun x v => Host.reduce IntOp.andi x v reducesTo_S4096x4x512_S_d0_1_2 h_S_) main_v6 main_c_1
  let main_v8 : IVec S_ 1 := andi main_v3 main_v7
  let main_v9 : FVec F S2048x512 .f32 := Host.absf main_arg3
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S2048x512 .f32 := Host.absf main_arg4
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg5 main_arg6 main_arg7 main_arg8 main_arg9 main_arg10 main_v13 main_v16
-- ==== Kernel.lean ====
abbrev S4096x512 : Shape := ⟨2, ![4096, 512]⟩
abbrev S4096x4x512 : Shape := ⟨3, ![4096, 4, 512]⟩
abbrev S4096x1 : Shape := ⟨2, ![4096, 1]⟩
abbrev S2048x512 : Shape := ⟨2, ![2048, 512]⟩
abbrev S2048 : Shape := ⟨1, ![2048]⟩
abbrev S4096x2048 : Shape := ⟨2, ![4096, 2048]⟩
abbrev S1x2048 : Shape := ⟨2, ![1, 2048]⟩
abbrev S512x512 : Shape := ⟨2, ![512, 512]⟩
abbrev S512x2048 : Shape := ⟨2, ![512, 2048]⟩
abbrev S512x1 : Shape := ⟨2, ![512, 1]⟩

abbrev nBuf : Space → Nat
  | .hbm => 20
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S4096x4x512, .f32⟩
  | .hbm, ⟨2, _⟩ => ⟨S4096x1, .i1⟩
  | .hbm, ⟨3, _⟩ => ⟨S2048x512, .f32⟩
  | .hbm, ⟨4, _⟩ => ⟨S2048x512, .f32⟩
  | .hbm, ⟨5, _⟩ => ⟨S2048, .f32⟩
  | .hbm, ⟨6, _⟩ => ⟨S2048, .f32⟩
  | .hbm, ⟨7, _⟩ => ⟨S2048x512, .f32⟩
  | .hbm, ⟨8, _⟩ => ⟨S2048x512, .f32⟩
  | .hbm, ⟨9, _⟩ => ⟨S2048, .f32⟩
  | .hbm, ⟨10, _⟩ => ⟨S2048, .f32⟩
  | .hbm, ⟨11, _⟩ => ⟨S4096x1, .f32⟩
  | .hbm, ⟨12, _⟩ => ⟨S4096x2048, .f32⟩
  | .hbm, ⟨13, _⟩ => ⟨S2048, .f32⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S4096x512, .f32⟩
  | .hbm, ⟨18, _⟩ => ⟨S4096x2048, .f32⟩
  | .hbm, ⟨19, _⟩ => ⟨S4096x4x512, .f32⟩
  | .local _ .vmem, ⟨0, _⟩ => ⟨S512x512, .f32⟩
  | .local _ .vmem, ⟨1, _⟩ => ⟨S512x512, .f32⟩
  | .local _ .vmem, ⟨2, _⟩ => ⟨S512x2048, .f32⟩
  | .local _ .vmem, ⟨3, _⟩ => ⟨S512x2048, .f32⟩
  | .local _ .vmem, ⟨4, _⟩ => ⟨S512x1, .f32⟩
  | .local _ .vmem, ⟨5, _⟩ => ⟨S512x1, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | .local _ .vmem, ⟨9, _⟩ => ⟨S2048x512, .f32⟩
  | .local _ .vmem, ⟨10, _⟩ => ⟨S1x2048, .f32⟩
  | .local _ .vmem, ⟨11, _⟩ => ⟨S1x2048, .f32⟩
  | .local _ .vmem, ⟨12, _⟩ => ⟨S512x512, .f32⟩
  | .local _ .vmem, ⟨13, _⟩ => ⟨S512x512, .f32⟩
  | .local _ .vmem, ⟨14, _⟩ => ⟨S512x2048, .f32⟩
  | .local _ .vmem, ⟨15, _⟩ => ⟨S512x2048, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S4096x4x512_S4096x2048 : S4096x4x512.ShapeCasts S4096x2048
  shapeCasts_S2048_S1x2048 : S2048.ShapeCasts S1x2048
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  broadcasts_S512x1_S512x2048 : S512x1.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S512x2048_S512x512_0_0 : ∀ a, (![0, 0] : Fin 2 → Nat) a + S512x512.size a ≤ S512x2048.size a
  inb_S512x2048_S512x512_0_512 : ∀ a, (![0, 512] : Fin 2 → Nat) a + S512x512.size a ≤ S512x2048.size a
  inb_S512x2048_S512x512_0_1024 : ∀ a, (![0, 1024] : Fin 2 → Nat) a + S512x512.size a ≤ S512x2048.size a
  inb_S512x2048_S512x512_0_1536 : ∀ a, (![0, 1536] : Fin 2 → Nat) a + S512x512.size a ≤ S512x2048.size a
  shapeCasts_S4096x2048_S4096x4x512 : S4096x2048.ShapeCasts S4096x4x512
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .f32 = 32 ∨ (Rect.block (s := S4096x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x512.size a
  hwx0_3 : ∀ i : grid0.Coords, EltTy.bits .f32 = 32 ∨ (Rect.block (s := S2048x512) S2048x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S2048x512.size a
  hwx0_4 : ∀ i : grid0.Coords, EltTy.bits .f32 = 32 ∨ (Rect.block (s := S2048x512) S2048x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S2048x512.size a
  hwx0_5 : ∀ i : grid0.Coords, EltTy.bits .f32 = 32 ∨ (Rect.block (s := S2048x512) S2048x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x512.size a ≤ S2048x512.size a
  hwx0_6 : ∀ i : grid0.Coords, EltTy.bits .f32 = 32 ∨ (Rect.block (s := S2048x512) S2048x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S4096x512.size a
  hwx0_9 : ∀ i : grid0.Coords, EltTy.bits .f32 = 32 ∨ (Rect.block (s := S4096x512) S512x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x2048.size a ≤ S4096x2048.size a
  hwx0_10 : ∀ i : grid0.Coords, EltTy.bits .f32 = 32 ∨ (Rect.block (s := S4096x2048) S512x2048.size (cc0_transform_10 i) (hinb0_10 i)).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S2048x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S2048x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6_0) S512x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_1) S512x2048.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096x4x512 : Shape := ⟨3, ![4096, 4, 512]⟩
abbrev S4096x1 : Shape := ⟨2, ![4096, 1]⟩
abbrev S2048x512 : Shape := ⟨2, ![2048, 512]⟩
abbrev S2048 : Shape := ⟨1, ![2048]⟩
abbrev S4x4096x512 : Shape := ⟨3, ![4, 4096, 512]⟩
abbrev S1x4096x1 : Shape := ⟨3, ![1, 4096, 1]⟩
abbrev S_ : Shape := ⟨0, ![]⟩
abbrev S2x4096x512 : Shape := ⟨3, ![2, 4096, 512]⟩
abbrev S512x2048 : Shape := ⟨2, ![512, 2048]⟩
abbrev S4096x2048 : Shape := ⟨2, ![4096, 2048]⟩
abbrev S1x2048 : Shape := ⟨2, ![1, 2048]⟩
abbrev S1x4096x512 : Shape := ⟨3, ![1, 4096, 512]⟩

abbrev nBuf : Space → Nat
  | .hbm => 123
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x4x512, .f32⟩
  | .hbm, ⟨2, _⟩ => ⟨S4096x1, .i1⟩
  | .hbm, ⟨3, _⟩ => ⟨S2048x512, .f32⟩
  | .hbm, ⟨4, _⟩ => ⟨S2048x512, .f32⟩
  | .hbm, ⟨5, _⟩ => ⟨S2048, .f32⟩
  | .hbm, ⟨6, _⟩ => ⟨S2048, .f32⟩
  | .hbm, ⟨7, _⟩ => ⟨S2048x512, .f32⟩
  | .hbm, ⟨8, _⟩ => ⟨S2048x512, .f32⟩
  | .hbm, ⟨9, _⟩ => ⟨S2048, .f32⟩
  | .hbm, ⟨10, _⟩ => ⟨S2048, .f32⟩
  | .hbm, ⟨11, _⟩ => ⟨S4x4096x512, .f32⟩
  | .hbm, ⟨12, _⟩ => ⟨S1x4096x1, .i1⟩
  | .hbm, ⟨13, _⟩ => ⟨S_, .f32⟩
  | .hbm, ⟨14, _⟩ => ⟨S4x4096x512, .i1⟩
  | .hbm, ⟨15, _⟩ => ⟨S4x4096x512, .f32⟩
  | .hbm, ⟨16, _⟩ => ⟨S4x4096x512, .f32⟩
  | .hbm, ⟨17, _⟩ => ⟨S2x4096x512, .f32⟩
  | .hbm, ⟨18, _⟩ => ⟨S2x4096x512, .f32⟩
  | .hbm, ⟨19, _⟩ => ⟨S512x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S1x4096x512, .f32⟩
  | .hbm, ⟨25, _⟩ => ⟨S4096x512, .f32⟩
  | .hbm, ⟨26, _⟩ => ⟨S512x2048, .f32⟩
  | .hbm, ⟨27, _⟩ => ⟨S4096x2048, .f32⟩
  | .hbm, ⟨28, _⟩ => ⟨S4096x2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S_, .f32⟩
  | .hbm, ⟨39, _⟩ => ⟨S4096x512, .f32⟩
  | .hbm, ⟨40, _⟩ => ⟨S4096x512, .f32⟩
  | .hbm, ⟨41, _⟩ => ⟨S_, .f32⟩
  | .hbm, ⟨42, _⟩ => ⟨S4096x512, .f32⟩
  | .hbm, ⟨43, _⟩ => ⟨S4096x512, .f32⟩
  | .hbm, ⟨44, _⟩ => ⟨S1x4096x512, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S_, .f32⟩
  | .hbm, ⟨50, _⟩ => ⟨S4096x512, .f32⟩
  | .hbm, ⟨51, _⟩ => ⟨S4096x512, .f32⟩
  | .hbm, ⟨52, _⟩ => ⟨S_, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S4096x512, .f32⟩
  | .hbm, ⟨58, _⟩ => ⟨S4096x512, .f32⟩
  | .hbm, ⟨59, _⟩ => ⟨S4096x512, .f32⟩
  | .hbm, ⟨60, _⟩ => ⟨S_, .f32⟩
  | .hbm, ⟨61, _⟩ => ⟨S4096x512, .f32⟩
  | .hbm, ⟨62, _⟩ => ⟨S4096x512, .f32⟩
  | .hbm, ⟨63, _⟩ => ⟨S_, .f32⟩
  | .hbm, ⟨64, _⟩ => ⟨S4096x512, .f32⟩
  | .hbm, ⟨65, _⟩ => ⟨S4096x512, .f32⟩
  | .hbm, ⟨66, _⟩ => ⟨S4096x512, .f32⟩
  | .hbm, ⟨67, _⟩ => ⟨S4096x512, .f32⟩
  | .hbm, ⟨68, _⟩ => ⟨S512x2048, .f32⟩
  | .hbm, ⟨69, _⟩ => ⟨S4096x2048, .f32⟩
  | .hbm, ⟨70, _⟩ => ⟨S1x2048, .f32⟩
  | .hbm, ⟨71, _⟩ => ⟨S4096x2048, .f32⟩
  | .hbm, ⟨72, _⟩ => ⟨S4096x2048, .f32⟩
  | .hbm, ⟨73, _⟩ => ⟨S1x4096x512, .f32⟩
  | .hbm, ⟨74, _⟩ => ⟨S4096x512, .f32⟩
  | .hbm, ⟨75, _⟩ => ⟨S512x2048, .f32⟩
  | .hbm, ⟨76, _⟩ => ⟨S4096x2048, .f32⟩
  | .hbm, ⟨77, _⟩ => ⟨S4096x2048, .f32⟩
  | .hbm, ⟨78, _⟩ => ⟨S1x2048, .f32⟩
  | .hbm, ⟨79, _⟩ => ⟨S4096x2048, .f32⟩
  | .hbm, ⟨80, _⟩ => ⟨S4096x2048, .f32⟩
  | .hbm, ⟨81, _⟩ => ⟨S4096x512, .f32⟩
  | .hbm, ⟨82, _⟩ => ⟨S4096x512, .f32⟩
  | .hbm, ⟨83, _⟩ => ⟨S4096x512, .f32⟩
  | .hbm, ⟨84, _⟩ => ⟨S4096x512, .f32⟩
  | .hbm, ⟨85, _⟩ => ⟨S4096x512, .f32⟩
  | .hbm, ⟨86, _⟩ => ⟨S4096x512, .f32⟩
  | .hbm, ⟨87, _⟩ => ⟨S_, .f32⟩
  | .hbm, ⟨88, _⟩ => ⟨S4096x512, .f32⟩
  | .hbm, ⟨89, _⟩ => ⟨S4096x512, .f32⟩
  | .hbm, ⟨90, _⟩ => ⟨S_, .f32⟩
  | .hbm, ⟨91, _⟩ => ⟨S4096x512, .f32⟩
  | .hbm, ⟨92, _⟩ => ⟨S4096x512, .f32⟩
  | .hbm, ⟨93, _⟩ => ⟨S1x4096x512, .f32⟩
  | .hbm, ⟨94, _⟩ => ⟨S4096x512, .f32⟩
  | .hbm, ⟨95, _⟩ => ⟨S4096x512, .f32⟩
  | .hbm, ⟨96, _⟩ => ⟨S4096x512, .f32⟩
  | .hbm, ⟨97, _⟩ => ⟨S4096x512, .f32⟩
  | .hbm, ⟨98, _⟩ => ⟨S_, .f32⟩
  | .hbm, ⟨99, _⟩ => ⟨S4096x512, .f32⟩
  | .hbm, ⟨100, _⟩ => ⟨S4096x512, .f32⟩
  | .hbm, ⟨101, _⟩ => ⟨S_, .f32⟩
  | .hbm, ⟨102, _⟩ => ⟨S4096x512, .f32⟩
  | .hbm, ⟨103, _⟩ => ⟨S4096x512, .f32⟩
  | .hbm, ⟨104, _⟩ => ⟨S4096x512, .f32⟩
  | .hbm, ⟨105, _⟩ => ⟨S4096x512, .f32⟩
  | .hbm, ⟨106, _⟩ => ⟨S4096x512, .f32⟩
  | .hbm, ⟨107, _⟩ => ⟨S4096x512, .f32⟩
  | .hbm, ⟨108, _⟩ => ⟨S4096x512, .f32⟩
  | .hbm, ⟨109, _⟩ => ⟨S_, .f32⟩
  | .hbm, ⟨110, _⟩ => ⟨S4096x512, .f32⟩
  | .hbm, ⟨111, _⟩ => ⟨S4096x512, .f32⟩
  | .hbm, ⟨112, _⟩ => ⟨S_, .f32⟩
  | .hbm, ⟨113, _⟩ => ⟨S4096x512, .f32⟩
  | .hbm, ⟨114, _⟩ => ⟨S4096x512, .f32⟩
  | .hbm, ⟨115, _⟩ => ⟨S4096x512, .f32⟩
  | .hbm, ⟨116, _⟩ => ⟨S4096x512, .f32⟩
  | .hbm, ⟨117, _⟩ => ⟨S1x4096x512, .f32⟩
  | .hbm, ⟨118, _⟩ => ⟨S1x4096x512, .f32⟩
  | .hbm, ⟨119, _⟩ => ⟨S1x4096x512, .f32⟩
  | .hbm, ⟨120, _⟩ => ⟨S1x4096x512, .f32⟩
  | .hbm, ⟨121, _⟩ => ⟨S4x4096x512, .f32⟩
  | .hbm, ⟨122, _⟩ => ⟨S4096x4x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_0 : Ref sig .tc := ⟨.hbm, 38, rfl⟩
abbrev main_v24 : Ref sig .tc := ⟨.hbm, 39, rfl⟩
abbrev main_v25 : Ref sig .tc := ⟨.hbm, 40, rfl⟩
abbrev main_cst_1 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_2 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_4 : Ref sig .tc := ⟨.hbm, 60, rfl⟩
abbrev main_v42 : Ref sig .tc := ⟨.hbm, 61, rfl⟩
abbrev main_v43 : Ref sig .tc := ⟨.hbm, 62, rfl⟩
abbrev main_cst_5 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_6 : Ref sig .tc := ⟨.hbm, 87, rfl⟩
abbrev main_v67 : Ref sig .tc := ⟨.hbm, 88, rfl⟩
abbrev main_v68 : Ref sig .tc := ⟨.hbm, 89, rfl⟩
abbrev main_cst_7 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_8 : Ref sig .tc := ⟨.hbm, 98, rfl⟩
abbrev main_v76 : Ref sig .tc := ⟨.hbm, 99, rfl⟩
abbrev main_v77 : Ref sig .tc := ⟨.hbm, 100, rfl⟩
abbrev main_cst_9 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_10 : Ref sig .tc := ⟨.hbm, 109, rfl⟩
abbrev main_v85 : Ref sig .tc := ⟨.hbm, 110, rfl⟩
abbrev main_v86 : Ref sig .tc := ⟨.hbm, 111, rfl⟩
abbrev main_cst_11 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩

abbrev nD : Nat := 1
abbrev τ : Topo := Topo.v7x

variable {F : FTy → Type} [FloatOps F]

class Facts₀ : Prop where
  transposes_S4096x4x512_S4x4096x512_1_0_2 : S4096x4x512.Transposes [1, 0, 2] S4x4096x512
  shapeCasts_S4096x1_S1x4096x1 : S4096x1.ShapeCasts S1x4096x1
  bcast_S1x4096x1_S4x4096x512_0_1_2 : S1x4096x1.BroadcastsInDim S4x4096x512 (![0, 1, 2] : Fin 3 → Fin S4x4096x512.rank)
  bcast_S_S4x4096x512 : S_.BroadcastsInDim S4x4096x512 (![] : Fin 0 → Fin S4x4096x512.rank)
  slices_S4x4096x512_S2x4096x512_0_0_0 : S4x4096x512.Slices ![0, 0, 0] S2x4096x512
  slices_S4x4096x512_S2x4096x512_2_0_0 : S4x4096x512.Slices ![2, 0, 0] S2x4096x512
  transposes_S2048x512_S512x2048_1_0 : S2048x512.Transposes [1, 0] S512x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  slices_S2x4096x512_S1x4096x512_0_0_0 : S2x4096x512.Slices ![0, 0, 0] S1x4096x512
  shapeCasts_S1x4096x512_S4096x512 : S1x4096x512.ShapeCasts S4096x512
  slices_S4096x2048_S4096x512_0_0 : S4096x2048.Slices ![0, 0] S4096x512
  slices_S4096x2048_S4096x512_0_512 : S4096x2048.Slices ![0, 512] S4096x512
  slices_S4096x2048_S4096x512_0_1024 : S4096x2048.Slices ![0, 1024] S4096x512
  slices_S4096x2048_S4096x512_0_1536 : S4096x2048.Slices ![0, 1536] S4096x512
  bcast_S_S4096x512 : S_.BroadcastsInDim S4096x512 (![] : Fin 0 → Fin S4096x512.rank)
  slices_S2x4096x512_S1x4096x512_1_0_0 : S2x4096x512.Slices ![1, 0, 0] S1x4096x512
  bcast_S4096x512_S1x4096x512_1_2 : S4096x512.BroadcastsInDim S1x4096x512 (![1, 2] : Fin 2 → Fin S1x4096x512.rank)
  concatenates_S1x4096x512_S1x4096x512_S1x4096x512_S1x4096x512_S4x4096x512_d0 : Shape.Concatenates [S1x4096x512, S1x4096x512, S1x4096x512, S1x4096x512] S4x4096x512 0
  transposes_S4x4096x512_S4096x4x512_1_0_2 : S4x4096x512.Transposes [1, 0, 2] S4096x4x512
  dot_S4096x512_S512x2048_S4096x2048_1_0_0_1_n_n_wf : DotDims.WF S4096x512 S512x2048 S4096x2048 [1] [0] [0] [1] [] []

variable [Facts₀]

def dot_S4096x512_S512x2048_S4096x2048_1_0_0_1_n_n : DotDims S4096x512 S512x2048 S4096x2048 where
  lhsContracting := [1]
  rhsContracting := [0]
  lhsNonContracting := [0]
  rhsNonContracting := [1]
  lhsBatch := []
  rhsBatch := []
  wf := dot_S4096x512_S512x2048_S4096x2048_1_0_0_1_n_n_wf

class Facts : Prop extends Facts₀ where

variable [Facts]
-- ==== Proof.Logistic.lean ====
/-
  The logistic function in two spellings, on the extended reals.

  One program computes a gate as `1 / (1 + exp (-x))`, the other as `1/2 * (tanh (1/2 * x) + 1)`.  On the reals these are
  one function: with `a = exp (x/2)` and `b = exp (-x/2)`, `a * b = 1`, the hyperbolic tangent of `x/2` is
  `(a - b) / (a + b)`, so the second spelling is `a / (a + b)`, and `a * (1 + b * b) = a + b`.  At the two infinities both
  spellings take the limits: `0` at `-∞` (`tanh` is `-1` there, `exp` of `+∞` is `+∞` and its reciprocal `0`) and `1` at
  `+∞` (`tanh` is `1`, `exp` of `-∞` is `0`).  So the equation holds at every extended real, with no finiteness assumed.
-/
import Idealize.ShloMosaic.PureOps.Ideal

noncomputable section

namespace Cert.Logistic

open Idealize.ShloMosaic

/-- The pattern of `0.5` denotes the real `1/2`. -/
theorem ofBits_half : Ideal.ofBits .f32 0x3F000000#32 = ((1 / 2 : ℝ) : EReal) := by
  simp [Ideal.ofBits, Ideal.ieee, -EReal.coe_mul]; norm_num

/-- The pattern of `1.0` denotes `1`. -/
theorem ofBits_one : Ideal.ofBits .f32 0x3F800000#32 = 1 := by
  simp [Ideal.ofBits, Ideal.ieee, -EReal.coe_mul]; norm_num

/-- On the reals: half of `tanh (x/2) + 1` is the reciprocal of `1 + exp (-x)`. -/
theorem real_half_tanh (r : ℝ) : (1 / 2 : ℝ) * (Real.tanh (1 / 2 * r) + 1) = (1 + Real.exp (-r))⁻¹ := by
  have ha : 0 < Real.exp (1 / 2 * r) := Real.exp_pos _
  have hb : 0 < Real.exp (-(1 / 2 * r)) := Real.exp_pos _
  have hab : Real.exp (1 / 2 * r) * Real.exp (-(1 / 2 * r)) = 1 := by
    rw [← Real.exp_add]; simp
  have hr : Real.exp (-r) = Real.exp (-(1 / 2 * r)) * Real.exp (-(1 / 2 * r)) := by
    rw [← Real.exp_add]; congr 1; ring
  rw [Real.tanh_eq_sinh_div_cosh, Real.sinh_eq, Real.cosh_eq, hr]
  generalize Real.exp (1 / 2 * r) = a at *
  generalize Real.exp (-(1 / 2 * r)) = b at *
  have hs : a + b ≠ 0 := by positivity
  have hq : 1 + b * b ≠ 0 := by positivity
  field_simp
  linear_combination (2 * b) * hab

/-- At every extended real: half of `tanh (x/2) + 1` is `1` divided by `1 + exp (-x)`. -/
theorem half_tanh (x : EReal) :
    ((1 / 2 : ℝ) : EReal) * (Ideal.tanh (((1 / 2 : ℝ) : EReal) * x) + 1) = Ideal.div 1 (1 + Ideal.exp (-x)) := by
  induction x using EReal.rec with
  | bot =>
    have h1 : (-1 : EReal) + 1 = 0 := by
      rw [← EReal.coe_one, ← EReal.coe_neg, ← EReal.coe_add]; norm_num
    rw [EReal.coe_mul_bot_of_pos (by norm_num), Ideal.tanh_bot, EReal.neg_bot, Ideal.exp_top]
    rw [h1, mul_zero]
    rw [show (1 : EReal) + ⊤ = ⊤ from EReal.add_top_of_ne_bot (by decide), Ideal.div, if_neg (by decide), EReal.inv_top, mul_zero]
  | top =>
    have h2 : ((1 / 2 : ℝ) : EReal) * ((1 : EReal) + 1) = 1 := by
      rw [← EReal.coe_one, ← EReal.coe_add, ← EReal.coe_mul]; norm_num
    rw [EReal.coe_mul_top_of_pos (by norm_num), Ideal.tanh_top, EReal.neg_top, Ideal.exp_bot, add_zero]
    rw [h2]
    rw [Ideal.div, if_neg one_ne_zero, one_mul, ← EReal.coe_one, ← EReal.coe_inv, inv_one]
  | coe r =>
    have hne : ((1 + Real.exp (-r) : ℝ) : EReal) ≠ 0 := by
      have : (0 : ℝ) < 1 + Real.exp (-r) := by positivity
      exact_mod_cast this.ne'
    rw [← EReal.coe_mul, Ideal.tanh_coe, ← EReal.coe_one, ← EReal.coe_add, ← EReal.coe_mul, ← EReal.coe_neg, Ideal.exp_coe,
      ← EReal.coe_add, Ideal.div, if_neg hne, ← EReal.coe_inv, ← EReal.coe_mul, one_mul, real_half_tanh]

/-- The same with the two constants as the float patterns the programs spell. -/
theorem half_tanh_bits (x : EReal) :
    Ideal.ofBits .f32 0x3F000000#32 * (Ideal.tanh (Ideal.ofBits .f32 0x3F000000#32 * x) + Ideal.ofBits .f32 0x3F800000#32)
      = Ideal.div (Ideal.ofBits .f32 0x3F800000#32) (Ideal.ofBits .f32 0x3F800000#32 + Ideal.exp (-x)) := by
  rw [ofBits_half, ofBits_one]; exact half_tanh x

end Cert.Logistic

end
-- ==== Proof.Cell.lean ====
/-
  One step of a two-layer LSTM cell on ONE row, as a function on the extended reals.

  A row's result depends on: the row `x` of the input (512 entries); the row `s` of the carried state after the episode
  reset, its four slots side by side `[h⁰ | h¹ | c⁰ | c¹]` (4 · 512 entries); the four weight matrices (2048 × 512 each,
  one row per gate column) and the two summed biases.  Layer `ℓ` forms the 2048 gate pre-activations

      g q = (∑ₖ input k · Wi q k + ∑ₖ h k · Wh q k) + b q,

  cut into four runs of 512 columns `[i | f | g | o]`, and with `σ` the logistic function

      c' j = σ (g (f j)) · c j + σ (g (i j)) · tanh (g (g j)),        h' j = σ (g (o j)) · tanh (c' j).

  Layer 0 reads `x` and `h⁰, c⁰`; layer 1 reads layer 0's `h'` and `h¹, c¹`.  The row written back is
  `[h⁰' | h¹' | c⁰' | c¹']`, and the output is `h¹'`.  `σ` is spelt `1/2 · (tanh (x/2) + 1)` here; `Logistic.lean` shows it
  is `1 / (1 + exp (-x))` at every extended real.  The only laws used between the two programs' arrangements are that
  equation, the commutativity and associativity of the sum (the two biases added separately or together), and
  `x · 1 = x`, `x · 0 = 0` (the reset as a product with the mask, or as a choice): none needs a finite operand.
-/
import Idealize.ShloMosaic.PureOps.Ideal
import Idealize.ShloMosaic.Lib.ValueIdx
import Idealize.ShloMosaic.PureOps.Ideal.Laws
import proofs.«101798_g18949395710359_cont_8to1_993_6_alg».proof.Proof.Logistic

noncomputable section

namespace Cert.Cell

open Idealize.ShloMosaic

/-! ## The four runs of gate columns, and of state slots -/

/-- Column `j` of the first run (the input gate; the slot `h⁰`). -/
abbrev colI (j : Fin 512) : Fin 2048 := ⟨j.val, by have := j.isLt; omega⟩
/-- Column `j` of the second run (the forget gate; the slot `h¹`). -/
abbrev colF (j : Fin 512) : Fin 2048 := ⟨512 + j.val, by have := j.isLt; omega⟩
/-- Column `j` of the third run (the candidate; the slot `c⁰`). -/
abbrev colG (j : Fin 512) : Fin 2048 := ⟨1024 + j.val, by have := j.isLt; omega⟩
/-- Column `j` of the fourth run (the output gate; the slot `c¹`). -/
abbrev colO (j : Fin 512) : Fin 2048 := ⟨1536 + j.val, by have := j.isLt; omega⟩

/-! ## The scalar functions -/

/-- The logistic function, spelt with the hyperbolic tangent. -/
def sg (x : EReal) : EReal :=
  Ideal.ofBits .f32 0x3F000000#32 * (Ideal.tanh (Ideal.ofBits .f32 0x3F000000#32 * x) + Ideal.ofBits .f32 0x3F800000#32)

/-- The spelling with the exponential is the same function. -/
theorem div_exp_eq_sg (x : EReal) :
    Ideal.div (Ideal.ofBits .f32 0x3F800000#32) (Ideal.ofBits .f32 0x3F800000#32 + Ideal.exp (-x)) = sg x :=
  (Cert.Logistic.half_tanh_bits x).symm

/-- The episode reset as a product: the entry times the mask bit read as a number. -/
def keep (b : BitVec 1) (x : EReal) : EReal := x * ((b.toNat : ℝ) : EReal)

/-- The reset as a choice between the entry and zero is the same. -/
theorem select_eq_keep (b : BitVec 1) (x : EReal) :
    Scalar.select b x (Ideal.ofBits .f32 0x00000000#32) = keep b x := by
  unfold keep
  by_cases h : b = 1#1
  · subst h; rw [ValueIdx.select_one]; simp
  · have h0 := ValueIdx.eq_zero_of_ne_one h
    subst h0; rw [ValueIdx.select_zero, Ideal.ofBits_zero_f32]; simp

/-! ## One layer -/

/-- The gate pre-activations of a layer, column `q`. -/
def pre (xr hr : Fin 512 → EReal) (Wi Wh : Fin 2048 → Fin 512 → EReal) (b : Fin 2048 → EReal) (q : Fin 2048) : EReal :=
  (∑ k : Fin 512, xr k * Wi q k + ∑ k : Fin 512, hr k * Wh q k) + b q

/-- The same with the two biases added one after the other, the first between the two products. -/
theorem pre_two_biases (xr hr : Fin 512 → EReal) (Wi Wh : Fin 2048 → Fin 512 → EReal) (bi bh : Fin 2048 → EReal) (q : Fin 2048) :
    ((∑ k : Fin 512, xr k * Wi q k + bi q) + ∑ k : Fin 512, hr k * Wh q k) + bh q
      = pre xr hr Wi Wh (fun q => bi q + bh q) q := by
  unfold pre
  simp only [add_assoc, add_comm, add_left_comm]

/-- The new cell state at `j`. -/
def cNew (g : Fin 2048 → EReal) (c : Fin 512 → EReal) (j : Fin 512) : EReal :=
  sg (g (colF j)) * c j + sg (g (colI j)) * Ideal.tanh (g (colG j))

/-- The new hidden state at `j`. -/
def hNew (g : Fin 2048 → EReal) (c : Fin 512 → EReal) (j : Fin 512) : EReal :=
  sg (g (colO j)) * Ideal.tanh (cNew g c j)

/-! ## One row through both layers -/

/-- Everything one row's result depends on. -/
structure Row where
  /-- the input row -/
  x : Fin 512 → EReal
  /-- the state row after the reset, `[h⁰ | h¹ | c⁰ | c¹]` -/
  s : Fin 2048 → EReal
  Wi0 : Fin 2048 → Fin 512 → EReal
  Wh0 : Fin 2048 → Fin 512 → EReal
  Wi1 : Fin 2048 → Fin 512 → EReal
  Wh1 : Fin 2048 → Fin 512 → EReal
  b0 : Fin 2048 → EReal
  b1 : Fin 2048 → EReal

namespace Row

def g0 (r : Row) : Fin 2048 → EReal := pre r.x (fun k => r.s (colI k)) r.Wi0 r.Wh0 r.b0
def c0 (r : Row) : Fin 512 → EReal := cNew r.g0 (fun k => r.s (colG k))
def h0 (r : Row) : Fin 512 → EReal := hNew r.g0 (fun k => r.s (colG k))
def g1 (r : Row) : Fin 2048 → EReal := pre r.h0 (fun k => r.s (colF k)) r.Wi1 r.Wh1 r.b1
def c1 (r : Row) : Fin 512 → EReal := cNew r.g1 (fun k => r.s (colO k))
def h1 (r : Row) : Fin 512 → EReal := hNew r.g1 (fun k => r.s (colO k))

/-- The state row written back, slot `l`, entry `k`: `[h⁰' | h¹' | c⁰' | c¹']`. -/
def slot (r : Row) (l : Fin 4) (k : Fin 512) : EReal :=
  match l with
  | ⟨0, _⟩ => r.h0 k
  | ⟨1, _⟩ => r.h1 k
  | ⟨2, _⟩ => r.c0 k
  | ⟨3, _⟩ => r.c1 k

/-- The same row flat: entry `q` of 2048 is slot `q / 512`, entry `q % 512`. -/
def flat (r : Row) (q : Fin 2048) : EReal :=
  r.slot ⟨q.val / 512, by have := q.isLt; omega⟩ ⟨q.val % 512, Nat.mod_lt _ (by decide)⟩

/-- Entry `l · 512 + k` of the flat row is slot `l`, entry `k`. -/
theorem flat_of (r : Row) (q : Fin 2048) (l : Fin 4) (k : Fin 512) (h : q.val = l.val * 512 + k.val) :
    r.flat q = r.slot l k := by
  unfold flat
  congr 1 <;> apply Fin.ext
  · show q.val / 512 = l.val
    have := k.isLt; omega
  · show q.val % 512 = k.val
    have := k.isLt; omega

theorem flat_colI (r : Row) (j : Fin 512) : r.flat (colI j) = r.h0 j :=
  flat_of r (colI j) (⟨0, by decide⟩ : Fin 4) j (by show j.val = 0 * 512 + j.val; omega)
theorem flat_colF (r : Row) (j : Fin 512) : r.flat (colF j) = r.h1 j :=
  flat_of r (colF j) (⟨1, by decide⟩ : Fin 4) j (by show 512 + j.val = 1 * 512 + j.val; omega)
theorem flat_colG (r : Row) (j : Fin 512) : r.flat (colG j) = r.c0 j :=
  flat_of r (colG j) (⟨2, by decide⟩ : Fin 4) j (by show 1024 + j.val = 2 * 512 + j.val; omega)
theorem flat_colO (r : Row) (j : Fin 512) : r.flat (colO j) = r.c1 j :=
  flat_of r (colO j) (⟨3, by decide⟩ : Fin 4) j (by show 1536 + j.val = 3 * 512 + j.val; omega)

end Row

/-! ## The two results as functions of the eleven argument arrays -/

section Arrays

open Idealize.ShloMosaic.ValueIdx

variable (X : (⟨2, ![4096, 512]⟩ : Shape).Idx → EReal) (Hd : (⟨3, ![4096, 4, 512]⟩ : Shape).Idx → EReal)
  (M : (⟨2, ![4096, 1]⟩ : Shape).Idx → BitVec 1)
  (Wi0 Wh0 : (⟨2, ![2048, 512]⟩ : Shape).Idx → EReal) (bi0 bh0 : (⟨1, ![2048]⟩ : Shape).Idx → EReal)
  (Wi1 Wh1 : (⟨2, ![2048, 512]⟩ : Shape).Idx → EReal) (bi1 bh1 : (⟨1, ![2048]⟩ : Shape).Idx → EReal)

/-- What row `n` of the results depends on: row `n` of the input, row `n` of the state (entry `q` of its 2048 is slot
    `q / 512`, entry `q % 512`) reset by row `n`'s mask bit, the weights, and each layer's two biases summed. -/
def rowAt (n : Fin 4096) : Row where
  x := fun k => X (ix2 n k)
  s := fun q => keep (M (ix2 n (0 : Fin 1)))
    (Hd (ix3 n (⟨q.val / 512, by have := q.isLt; omega⟩ : Fin 4) (⟨q.val % 512, Nat.mod_lt _ (by decide)⟩ : Fin 512)))
  Wi0 := fun q k => Wi0 (ix2 q k)
  Wh0 := fun q k => Wh0 (ix2 q k)
  Wi1 := fun q k => Wi1 (ix2 q k)
  Wh1 := fun q k => Wh1 (ix2 q k)
  b0 := fun q => bi0 (ix1 q) + bh0 (ix1 q)
  b1 := fun q => bi1 (ix1 q) + bh1 (ix1 q)

/-- The output: entry `(n, j)` is the second layer's new hidden state of row `n` at `j`. -/
def outArr : (⟨2, ![4096, 512]⟩ : Shape).Idx → EReal :=
  fun i => (rowAt X Hd M Wi0 Wh0 bi0 bh0 Wi1 Wh1 bi1 bh1 (i 0)).h1 (i 1)

/-- The new state: entry `(n, l, k)` is slot `l` of row `n`'s written-back state at `k`. -/
def hidArr : (⟨3, ![4096, 4, 512]⟩ : Shape).Idx → EReal :=
  fun i => (rowAt X Hd M Wi0 Wh0 bi0 bh0 Wi1 Wh1 bi1 bh1 (i 0)).slot (i 1) (i 2)

end Arrays

end Cert.Cell

end
-- ==== Proof.LibColumnBroadcast.lean ====
/-
  A column broadcast along the rows' second axis, read at an index: a general layout fact, independent of any program.
-/
import Idealize.ShloMosaic.Lib.Pipeline.Value
import Idealize.ShloMosaic.Lib.ValueIdx

namespace Idealize.ShloMosaic.ValueIdx

open Idealize.ShloMosaic

variable {α : Type}

/-- An `[a, 1]` array (one column) broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `broadcast_in_dim` of an `[a, 1]` array (one column) to `[a, b]` along both axes reads, at `(p, c)`, the column's
    entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1])
    (p : Fin a) (c : Fin b) : broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A `broadcast_in_dim` of a `[1, b]` array (one row) to `[a, b]` along both axes reads, at `(p, c)`, the row's entry
    of column `c`. -/
theorem broadcastInDim_1b_ab_apply {a b : ℕ} (v : (⟨2, ![1, b]⟩ : Shape).Idx → α)
    (h : (⟨2, ![1, b]⟩ : Shape).BroadcastsInDim ⟨2, ![a, b]⟩ ![0, 1])
    (p : Fin a) (c : Fin b) : broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A `broadcast_in_dim` of an `[a]` vector to `[a, 1]` (its entries down one column) reads, at `(p, u)`, entry `p`. -/
theorem broadcastInDim_a_a1_apply {a : ℕ} (v : (⟨1, ![a]⟩ : Shape).Idx → α)
    (h : (⟨1, ![a]⟩ : Shape).BroadcastsInDim ⟨2, ![a, 1]⟩ ![0])
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A `broadcast_in_dim` of a `[b]` vector to `[1, b]` (its entries along one row) reads, at `(u, c)`, entry `c`. -/
theorem broadcastInDim_b_1b_apply {b : ℕ} (v : (⟨1, ![b]⟩ : Shape).Idx → α)
    (h : (⟨1, ![b]⟩ : Shape).BroadcastsInDim ⟨2, ![1, b]⟩ ![1])
    (u : Fin 1) (c : Fin b) : broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

end Idealize.ShloMosaic.ValueIdx
-- ==== Proof.BlockCell.lean ====
/-
  The kernel body on one block of 512 rows, read at an index.

  The body loads a block `x0` of the input (512 × 512), the matching block `x1` of the flattened state (512 × 2048), the
  block `x2` of the mask as numbers (512 × 1), the four weight matrices `x3 … x6` whole (2048 × 512) and the two summed
  biases `x7, x8` as one row each (1 × 2048).  Every value it computes is, at row `p` of the block, a function of row `p`
  of `x0`, `x1`, `x2` and of the weights and biases only: the state row is multiplied by the row's mask entry, cut into its
  four slots; each matrix product contracts the 512 columns of a row against the 512 columns of a weight row, into a zero
  accumulator; the bias row is repeated down the rows; the gates are the four runs of 512 columns of the sum.  So the five
  stored values at `(p, j)` are the cell of `Cell.lean` applied to that row (`blkRow`): the new hidden and cell states of
  both layers.  A change of float format is the identity on the extended reals, so the products read their operands as
  they are.
-/
import proofs.«101798_g18949395710359_cont_8to1_993_6_alg».proof.Proof.Gen.KernelIdeal.Skeleton
import proofs.«101798_g18949395710359_cont_8to1_993_6_alg».proof.Proof.Cell
import proofs.«101798_g18949395710359_cont_8to1_993_6_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Idealize.ShloMosaic Idealize.ShloMosaic.ValueIdx Cert.KernelIdeal Cert.KernelIdeal.Gen Cert.Cell

/-! ## The matrix product of a block with a weight matrix, both contracted along their columns -/

theorem lhs_axis0 (i : S512x2048.Idx) (q : dot_S512x512_S2048x512_S512x2048_1_1_0_0_n_n.contr.Idx) :
    (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide),
    dif_pos (show (0 : Fin S512x512.rank) ∈ dot_S512x512_S2048x512_S512x2048_1_1_0_0_n_n.lhsNonContracting by decide)]
  rfl

theorem lhs_axis1 (i : S512x2048.Idx) (q : dot_S512x512_S2048x512_S512x2048_1_1_0_0_n_n.contr.Idx) :
    (dot_S512x512_S2048x512_S512x2048_1_1_0_0_n_n.lhsIdx i q 1).val = (q ⟨0, by decide⟩).val :=
  dot_S512x512_S2048x512_S512x2048_1_1_0_0_n_n.lhsIdx_val_of_single rfl i q

theorem rhs_axis0 (i : S512x2048.Idx) (q : dot_S512x512_S2048x512_S512x2048_1_1_0_0_n_n.contr.Idx) :
    (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide),
    dif_pos (show (0 : Fin S2048x512.rank) ∈ dot_S512x512_S2048x512_S512x2048_1_1_0_0_n_n.rhsNonContracting by decide)]
  rfl

theorem rhs_axis1 (i : S512x2048.Idx) (q : dot_S512x512_S2048x512_S512x2048_1_1_0_0_n_n.contr.Idx) :
    (dot_S512x512_S2048x512_S512x2048_1_1_0_0_n_n.rhsIdx i q 1).val = (q ⟨0, by decide⟩).val :=
  dot_S512x512_S2048x512_S512x2048_1_1_0_0_n_n.rhsIdx_val_of_single rfl i q

/-- Entry `(p, q)` of the product into a zero accumulator: row `p` of the left operand against row `q` of the right. -/
theorem matmul_rows (l : FVec Ideal S512x512 .bf16) (r : FVec Ideal S2048x512 .bf16) (p : Fin 512) (q : Fin 2048) :
    matmul dot_S512x512_S2048x512_S512x2048_1_1_0_0_n_n none l r (constant S512x2048 .f32 0x00000000#32) (ix2 p q)
      = ∑ k : Fin 512, l (ix2 p k) * r (ix2 q k) := by
  simp only [matmul]
  rw [Ideal.matmul_constant_zero_apply,
    ← Equiv.sum_comp (contrEquiv1 dot_S512x512_S2048x512_S512x2048_1_1_0_0_n_n 512 rfl rfl).symm]
  refine Finset.sum_congr rfl fun k _ => ?_
  have hk := contrEquiv1_symm_val dot_S512x512_S2048x512_S512x2048_1_1_0_0_n_n 512 rfl rfl k
  have el : dot_S512x512_S2048x512_S512x2048_1_1_0_0_n_n.lhsIdx (ix2 p q)
      ((contrEquiv1 dot_S512x512_S2048x512_S512x2048_1_1_0_0_n_n 512 rfl rfl).symm k) = ix2 p k :=
    funext fun a => Fin.ext (by
      match a with
      | ⟨0, _⟩ => exact lhs_axis0 _ _
      | ⟨1, _⟩ => exact (lhs_axis1 _ _).trans hk)
  have er : dot_S512x512_S2048x512_S512x2048_1_1_0_0_n_n.rhsIdx (ix2 p q)
      ((contrEquiv1 dot_S512x512_S2048x512_S512x2048_1_1_0_0_n_n 512 rfl rfl).symm k) = ix2 q k :=
    funext fun a => Fin.ext (by
      match a with
      | ⟨0, _⟩ => exact rhs_axis0 _ _
      | ⟨1, _⟩ => exact (rhs_axis1 _ _).trans hk)
  rw [el, er]

/-! ## Each value of the body at an index, from the values it is computed from -/

section Pointwise

variable (p : Fin 512) (j : Fin 512) (q : Fin 2048)

/-- The state block times the mask column. -/
theorem pay3_apply (v0 : Vec Ideal S512x1 .f32) (v2 : Vec Ideal S512x2048 .f32) :
    k0_pay3 v0 v2 (ix2 p q) = v2 (ix2 p q) * v0 (ix2 p (0 : Fin 1)) := by
  show shapeCast S512x2048 v2 shapeCasts_S512x2048_S512x2048 (ix2 p q)
      * broadcastTo S512x2048 (shapeCast S512x1 v0 shapeCasts_S512x1_S512x1) broadcasts_S512x1_S512x2048 (ix2 p q) = _
  rw [shapeCast_self, shapeCast_self, broadcastTo_a1_ab_apply]

/-- The four slots of the reset state. -/
theorem pay4_apply (v0 : Vec Ideal S512x1 .f32) (v2 : Vec Ideal S512x2048 .f32) :
    k0_pay4 v0 v2 (ix2 p j) = k0_pay3 v0 v2 (ix2 p (colF j)) :=
  slice2_axis1_apply 512 (k0_pay3 v0 v2) slices_S512x2048_o0_512_S512x512 p j (colF j) rfl
theorem pay5_apply (v0 : Vec Ideal S512x1 .f32) (v2 : Vec Ideal S512x2048 .f32) :
    k0_pay5 v0 v2 (ix2 p j) = k0_pay3 v0 v2 (ix2 p (colG j)) :=
  slice2_axis1_apply 1024 (k0_pay3 v0 v2) slices_S512x2048_o0_1024_S512x512 p j (colG j) rfl
theorem pay6_apply (v0 : Vec Ideal S512x1 .f32) (v2 : Vec Ideal S512x2048 .f32) :
    k0_pay6 v0 v2 (ix2 p j) = k0_pay3 v0 v2 (ix2 p (colO j)) :=
  slice2_axis1_apply 1536 (k0_pay3 v0 v2) slices_S512x2048_o0_1536_S512x512 p j (colO j) rfl

/-- The first layer's gate pre-activations. -/
theorem pay7_apply (v0 : Vec Ideal S512x1 .f32) (v2 : Vec Ideal S512x2048 .f32) (v10 : Vec Ideal S512x512 .f32)
    (v12 v16 : Vec Ideal S2048x512 .f32) (v20 : Vec Ideal S1x2048 .f32) :
    k0_pay7 v0 v2 v10 v12 v16 v20 (ix2 p q)
      = pre (fun k => v10 (ix2 p k)) (fun k => k0_pay3 v0 v2 (ix2 p (colI k))) (fun q k => v12 (ix2 q k)) (fun q k => v16 (ix2 q k))
          (fun q => v20 (ix2 (0 : Fin 1) q)) q := by
  show (matmul dot_S512x512_S2048x512_S512x2048_1_1_0_0_n_n none (truncf .bf16 v10 bitsLt_bf16_f32) (truncf .bf16 v12 bitsLt_bf16_f32)
          (constant S512x2048 .f32 0x00000000#32) (ix2 p q)
        + matmul dot_S512x512_S2048x512_S512x2048_1_1_0_0_n_n none
            (truncf .bf16 (extractStridedSlice S512x512 ![0, 0] (k0_pay3 v0 v2) slices_S512x2048_o0_0_S512x512) bitsLt_bf16_f32)
            (truncf .bf16 v16 bitsLt_bf16_f32) (constant S512x2048 .f32 0x00000000#32) (ix2 p q))
      + broadcastTo S512x2048 (shapeCast S1x2048 v20 shapeCasts_S1x2048_S1x2048) broadcasts_S1x2048_S512x2048 (ix2 p q) = _
  rw [matmul_rows, matmul_rows, shapeCast_self, broadcastTo_1b_ab_apply]
  unfold pre
  congr 2
  refine Finset.sum_congr rfl fun k _ => ?_
  show extractStridedSlice S512x512 ![0, 0] (k0_pay3 v0 v2) slices_S512x2048_o0_0_S512x512 (ix2 p k) * _ = _
  rw [slice2_axis1_apply 0 (k0_pay3 v0 v2) slices_S512x2048_o0_0_S512x512 p k (colI k) (Nat.zero_add _).symm]
  rfl

/-- A gate: the logistic function of a run of the pre-activations. -/
theorem pay8_apply (v0 : Vec Ideal S512x1 .f32) (v2 : Vec Ideal S512x2048 .f32) (v10 : Vec Ideal S512x512 .f32)
    (v12 v16 : Vec Ideal S2048x512 .f32) (v20 : Vec Ideal S1x2048 .f32) :
    k0_pay8 v0 v2 v10 v12 v16 v20 (ix2 p j) = sg (k0_pay7 v0 v2 v10 v12 v16 v20 (ix2 p (colI j))) := by
  show Ideal.ofBits .f32 0x3F000000#32 * (Ideal.tanh (Ideal.ofBits .f32 0x3F000000#32
      * extractStridedSlice S512x512 ![0, 0] (k0_pay7 v0 v2 v10 v12 v16 v20) slices_S512x2048_o0_0_S512x512 (ix2 p j))
      + Ideal.ofBits .f32 0x3F800000#32) = _
  rw [slice2_axis1_apply 0 (k0_pay7 v0 v2 v10 v12 v16 v20) slices_S512x2048_o0_0_S512x512 p j (colI j) (Nat.zero_add _).symm]
  rfl

/-- The forget gate before its last halving. -/
theorem pay9_apply (v0 : Vec Ideal S512x1 .f32) (v2 : Vec Ideal S512x2048 .f32) (v10 : Vec Ideal S512x512 .f32)
    (v12 v16 : Vec Ideal S2048x512 .f32) (v20 : Vec Ideal S1x2048 .f32) :
    k0_pay9 v0 v2 v10 v12 v16 v20 (ix2 p j)
      = Ideal.tanh (Ideal.ofBits .f32 0x3F000000#32 * k0_pay7 v0 v2 v10 v12 v16 v20 (ix2 p (colF j))) + Ideal.ofBits .f32 0x3F800000#32 := by
  show Ideal.tanh (Ideal.ofBits .f32 0x3F000000#32
      * extractStridedSlice S512x512 ![0, 512] (k0_pay7 v0 v2 v10 v12 v16 v20) slices_S512x2048_o0_512_S512x512 (ix2 p j))
      + Ideal.ofBits .f32 0x3F800000#32 = _
  rw [slice2_axis1_apply 512 (k0_pay7 v0 v2 v10 v12 v16 v20) slices_S512x2048_o0_512_S512x512 p j (colF j) rfl]

theorem pay10_apply : k0_pay10 (F := Ideal) (ix2 p j) = Ideal.ofBits .f32 0x3F000000#32 := rfl

/-- The new cell state from the gates' parts. -/
theorem pay11_apply (v8 v31 v37 v38 : FVec Ideal S512x512 .f32) (v23 : FVec Ideal S512x2048 .f32) :
    k0_pay11 v8 v23 v31 v37 v38 (ix2 p j)
      = v38 (ix2 p j) * v37 (ix2 p j) * v8 (ix2 p j) + v31 (ix2 p j) * Ideal.tanh (v23 (ix2 p (colG j))) := by
  show v38 (ix2 p j) * v37 (ix2 p j) * v8 (ix2 p j) + v31 (ix2 p j)
      * Ideal.tanh (extractStridedSlice S512x512 ![0, 1024] v23 slices_S512x2048_o0_1024_S512x512 (ix2 p j)) = _
  rw [slice2_axis1_apply 1024 v23 slices_S512x2048_o0_1024_S512x512 p j (colG j) rfl]

/-- The new hidden state from the output gate and the new cell state. -/
theorem pay12_apply (v8 v31 v37 v38 : FVec Ideal S512x512 .f32) (v23 : FVec Ideal S512x2048 .f32) :
    k0_pay12 v8 v23 v31 v37 v38 (ix2 p j) = sg (v23 (ix2 p (colO j))) * Ideal.tanh (k0_pay11 v8 v23 v31 v37 v38 (ix2 p j)) := by
  show Ideal.ofBits .f32 0x3F000000#32 * (Ideal.tanh (Ideal.ofBits .f32 0x3F000000#32
      * extractStridedSlice S512x512 ![0, 1536] v23 slices_S512x2048_o0_1536_S512x512 (ix2 p j)) + Ideal.ofBits .f32 0x3F800000#32)
      * Ideal.tanh (k0_pay11 v8 v23 v31 v37 v38 (ix2 p j)) = _
  rw [slice2_axis1_apply 1536 v23 slices_S512x2048_o0_1536_S512x512 p j (colO j) rfl]
  rfl

/-- The second layer's gate pre-activations. -/
theorem pay13_apply (v7 v8 v31 v37 v38 : FVec Ideal S512x512 .f32) (v23 : FVec Ideal S512x2048 .f32)
    (v56 v60 : Vec Ideal S2048x512 .f32) (v64 : Vec Ideal S1x2048 .f32) :
    k0_pay13 v7 v8 v23 v31 v37 v38 v56 v60 v64 (ix2 p q)
      = pre (fun k => k0_pay12 v8 v23 v31 v37 v38 (ix2 p k)) (fun k => v7 (ix2 p k)) (fun q k => v56 (ix2 q k)) (fun q k => v60 (ix2 q k))
          (fun q => v64 (ix2 (0 : Fin 1) q)) q := by
  show (matmul dot_S512x512_S2048x512_S512x2048_1_1_0_0_n_n none (truncf .bf16 (k0_pay12 v8 v23 v31 v37 v38) bitsLt_bf16_f32)
          (truncf .bf16 v56 bitsLt_bf16_f32) (constant S512x2048 .f32 0x00000000#32) (ix2 p q)
        + matmul dot_S512x512_S2048x512_S512x2048_1_1_0_0_n_n none (truncf .bf16 v7 bitsLt_bf16_f32)
            (truncf .bf16 v60 bitsLt_bf16_f32) (constant S512x2048 .f32 0x00000000#32) (ix2 p q))
      + broadcastTo S512x2048 (shapeCast S1x2048 v64 shapeCasts_S1x2048_S1x2048) broadcasts_S1x2048_S512x2048 (ix2 p q) = _
  rw [matmul_rows, matmul_rows, shapeCast_self, broadcastTo_1b_ab_apply]
  rfl

theorem pay14_apply (v7 v8 v31 v37 v38 : FVec Ideal S512x512 .f32) (v23 : FVec Ideal S512x2048 .f32)
    (v56 v60 : Vec Ideal S2048x512 .f32) (v64 : Vec Ideal S1x2048 .f32) :
    k0_pay14 v7 v8 v23 v31 v37 v38 v56 v60 v64 (ix2 p j) = sg (k0_pay13 v7 v8 v23 v31 v37 v38 v56 v60 v64 (ix2 p (colI j))) := by
  show Ideal.ofBits .f32 0x3F000000#32 * (Ideal.tanh (Ideal.ofBits .f32 0x3F000000#32
      * extractStridedSlice S512x512 ![0, 0] (k0_pay13 v7 v8 v23 v31 v37 v38 v56 v60 v64) slices_S512x2048_o0_0_S512x512 (ix2 p j))
      + Ideal.ofBits .f32 0x3F800000#32) = _
  rw [slice2_axis1_apply 0 (k0_pay13 v7 v8 v23 v31 v37 v38 v56 v60 v64) slices_S512x2048_o0_0_S512x512 p j (colI j) (Nat.zero_add _).symm]
  rfl

theorem pay15_apply (v7 v8 v31 v37 v38 : FVec Ideal S512x512 .f32) (v23 : FVec Ideal S512x2048 .f32)
    (v56 v60 : Vec Ideal S2048x512 .f32) (v64 : Vec Ideal S1x2048 .f32) :
    k0_pay15 v7 v8 v23 v31 v37 v38 v56 v60 v64 (ix2 p j)
      = Ideal.tanh (Ideal.ofBits .f32 0x3F000000#32 * k0_pay13 v7 v8 v23 v31 v37 v38 v56 v60 v64 (ix2 p (colF j)))
          + Ideal.ofBits .f32 0x3F800000#32 := by
  show Ideal.tanh (Ideal.ofBits .f32 0x3F000000#32
      * extractStridedSlice S512x512 ![0, 512] (k0_pay13 v7 v8 v23 v31 v37 v38 v56 v60 v64) slices_S512x2048_o0_512_S512x512 (ix2 p j))
      + Ideal.ofBits .f32 0x3F800000#32 = _
  rw [slice2_axis1_apply 512 (k0_pay13 v7 v8 v23 v31 v37 v38 v56 v60 v64) slices_S512x2048_o0_512_S512x512 p j (colF j) rfl]

/-- The second layer's new cell state. -/
theorem pay1_apply (v9 v75 v81 : FVec Ideal S512x512 .f32) (v67 : FVec Ideal S512x2048 .f32) (c : Ideal .f32) :
    k0_pay1 v9 v67 v75 v81 c (ix2 p j) = c * v81 (ix2 p j) * v9 (ix2 p j) + v75 (ix2 p j) * Ideal.tanh (v67 (ix2 p (colG j))) := by
  show c * v81 (ix2 p j) * v9 (ix2 p j) + v75 (ix2 p j)
      * Ideal.tanh (extractStridedSlice S512x512 ![0, 1024] v67 slices_S512x2048_o0_1024_S512x512 (ix2 p j)) = _
  rw [slice2_axis1_apply 1024 v67 slices_S512x2048_o0_1024_S512x512 p j (colG j) rfl]

/-- The second layer's new hidden state. -/
theorem pay2_apply (v9 v75 v81 : FVec Ideal S512x512 .f32) (v67 : FVec Ideal S512x2048 .f32) (c : Ideal .f32) :
    k0_pay2 v9 v67 v75 v81 c (ix2 p j) = sg (v67 (ix2 p (colO j))) * Ideal.tanh (k0_pay1 v9 v67 v75 v81 c (ix2 p j)) := by
  show Ideal.ofBits .f32 0x3F000000#32 * (Ideal.tanh (Ideal.ofBits .f32 0x3F000000#32
      * extractStridedSlice S512x512 ![0, 1536] v67 slices_S512x2048_o0_1536_S512x512 (ix2 p j)) + Ideal.ofBits .f32 0x3F800000#32)
      * Ideal.tanh (k0_pay1 v9 v67 v75 v81 c (ix2 p j)) = _
  rw [slice2_axis1_apply 1536 v67 slices_S512x2048_o0_1536_S512x512 p j (colO j) rfl]
  rfl

end Pointwise

/-! ## The row of a block, and the body's five stored values as its cell -/

section Row

variable (x0 : Vec Ideal S512x512 .f32) (x1 : Vec Ideal S512x2048 .f32) (x2 : Vec Ideal S512x1 .f32)
  (x3 x4 x5 x6 : Vec Ideal S2048x512 .f32) (x7 x8 : Vec Ideal S1x2048 .f32)

/-- What row `p` of the block's results depends on. -/
def blkRow (p : Fin 512) : Row where
  x := fun k => x0 (ix2 p k)
  s := fun q => x1 (ix2 p q) * x2 (ix2 p (0 : Fin 1))
  Wi0 := fun q k => x3 (ix2 q k)
  Wh0 := fun q k => x4 (ix2 q k)
  Wi1 := fun q k => x5 (ix2 q k)
  Wh1 := fun q k => x6 (ix2 q k)
  b0 := fun q => x7 (ix2 (0 : Fin 1) q)
  b1 := fun q => x8 (ix2 (0 : Fin 1) q)

/-- The first layer's pre-activations of row `p`. -/
theorem g0_blk (p : Fin 512) (q : Fin 2048) :
    k0_pay7 x2 x1 x0 x3 x4 x7 (ix2 p q) = (blkRow x0 x1 x2 x3 x4 x5 x6 x7 x8 p).g0 q := by
  rw [pay7_apply]
  unfold Row.g0 blkRow
  simp only [pay3_apply]

/-- The first layer's new cell state of row `p`. -/
theorem c0_blk (p j : Fin 512) :
    k0_pay11 (k0_pay5 x2 x1) (k0_pay7 x2 x1 x0 x3 x4 x7) (k0_pay8 x2 x1 x0 x3 x4 x7) (k0_pay9 x2 x1 x0 x3 x4 x7) (k0_pay10 (F := Ideal)) (ix2 p j)
      = (blkRow x0 x1 x2 x3 x4 x5 x6 x7 x8 p).c0 j := by
  rw [pay11_apply, pay10_apply, pay9_apply, pay5_apply, pay3_apply, pay8_apply]
  simp only [g0_blk x0 x1 x2 x3 x4 x5 x6 x7 x8]
  rfl

/-- The first layer's new hidden state of row `p`. -/
theorem h0_blk (p j : Fin 512) :
    k0_pay12 (k0_pay5 x2 x1) (k0_pay7 x2 x1 x0 x3 x4 x7) (k0_pay8 x2 x1 x0 x3 x4 x7) (k0_pay9 x2 x1 x0 x3 x4 x7) (k0_pay10 (F := Ideal)) (ix2 p j)
      = (blkRow x0 x1 x2 x3 x4 x5 x6 x7 x8 p).h0 j := by
  rw [pay12_apply, c0_blk x0 x1 x2 x3 x4 x5 x6 x7 x8, g0_blk x0 x1 x2 x3 x4 x5 x6 x7 x8]
  rfl

/-- The second layer's pre-activations of row `p`. -/
theorem g1_blk (p : Fin 512) (q : Fin 2048) :
    k0_pay13 (k0_pay4 x2 x1) (k0_pay5 x2 x1) (k0_pay7 x2 x1 x0 x3 x4 x7) (k0_pay8 x2 x1 x0 x3 x4 x7) (k0_pay9 x2 x1 x0 x3 x4 x7) (k0_pay10 (F := Ideal)) x5 x6 x8 (ix2 p q)
      = (blkRow x0 x1 x2 x3 x4 x5 x6 x7 x8 p).g1 q := by
  rw [pay13_apply]
  unfold Row.g1
  simp only [h0_blk x0 x1 x2 x3 x4 x5 x6 x7 x8, pay4_apply, pay3_apply]
  rfl

/-- The second layer's new cell state of row `p`. -/
theorem c1_blk (p j : Fin 512) :
    k0_pay1 (k0_pay6 x2 x1)
        (k0_pay13 (k0_pay4 x2 x1) (k0_pay5 x2 x1) (k0_pay7 x2 x1 x0 x3 x4 x7) (k0_pay8 x2 x1 x0 x3 x4 x7) (k0_pay9 x2 x1 x0 x3 x4 x7) (k0_pay10 (F := Ideal)) x5 x6 x8)
        (k0_pay14 (k0_pay4 x2 x1) (k0_pay5 x2 x1) (k0_pay7 x2 x1 x0 x3 x4 x7) (k0_pay8 x2 x1 x0 x3 x4 x7) (k0_pay9 x2 x1 x0 x3 x4 x7) (k0_pay10 (F := Ideal)) x5 x6 x8)
        (k0_pay15 (k0_pay4 x2 x1) (k0_pay5 x2 x1) (k0_pay7 x2 x1 x0 x3 x4 x7) (k0_pay8 x2 x1 x0 x3 x4 x7) (k0_pay9 x2 x1 x0 x3 x4 x7) (k0_pay10 (F := Ideal)) x5 x6 x8)
        (Scalar.ofBits .f32 0x3F000000#32) (ix2 p j)
      = (blkRow x0 x1 x2 x3 x4 x5 x6 x7 x8 p).c1 j := by
  rw [pay1_apply, pay15_apply, pay6_apply, pay3_apply, pay14_apply]
  simp only [g1_blk x0 x1 x2 x3 x4 x5 x6 x7 x8]
  rfl

/-- The second layer's new hidden state of row `p`. -/
theorem h1_blk (p j : Fin 512) :
    k0_pay2 (k0_pay6 x2 x1)
        (k0_pay13 (k0_pay4 x2 x1) (k0_pay5 x2 x1) (k0_pay7 x2 x1 x0 x3 x4 x7) (k0_pay8 x2 x1 x0 x3 x4 x7) (k0_pay9 x2 x1 x0 x3 x4 x7) (k0_pay10 (F := Ideal)) x5 x6 x8)
        (k0_pay14 (k0_pay4 x2 x1) (k0_pay5 x2 x1) (k0_pay7 x2 x1 x0 x3 x4 x7) (k0_pay8 x2 x1 x0 x3 x4 x7) (k0_pay9 x2 x1 x0 x3 x4 x7) (k0_pay10 (F := Ideal)) x5 x6 x8)
        (k0_pay15 (k0_pay4 x2 x1) (k0_pay5 x2 x1) (k0_pay7 x2 x1 x0 x3 x4 x7) (k0_pay8 x2 x1 x0 x3 x4 x7) (k0_pay9 x2 x1 x0 x3 x4 x7) (k0_pay10 (F := Ideal)) x5 x6 x8)
        (Scalar.ofBits .f32 0x3F000000#32) (ix2 p j)
      = (blkRow x0 x1 x2 x3 x4 x5 x6 x7 x8 p).h1 j := by
  rw [pay2_apply, c1_blk x0 x1 x2 x3 x4 x5 x6 x7 x8, g1_blk x0 x1 x2 x3 x4 x5 x6 x7 x8]
  rfl

end Row

end Cert.KernelIdeal.Block

end
-- ==== Proof.KernelArrays.lean ====
/-
  The kernel's two result arrays as functions of the argument arrays.

  The grid has 8 points; point `t` works on rows `512 t … 512 t + 511`.  Before the region the host flattens the state
  `[4096, 4, 512]` to `[4096, 2048]` (entry `(n, q)` is slot `q / 512`, entry `q % 512` of row `n`), reads the mask bits as
  numbers, and sums each layer's two biases into one row `[1, 2048]`.  So the blocks the body loads at point `t`, read at
  row `p`, are row `512 t + p` of the arguments (`blkRow_eq`), what point `t` writes back is rows `512 t …` of the
  specification's arrays, the 8 blocks cover all 4096 rows, and the array after the run is the specification's.  After
  the region the host cuts the written-back state rows `[4096, 2048]` into their four slots again, `[4096, 4, 512]`.
-/
import proofs.«101798_g18949395710359_cont_8to1_993_6_alg».proof.Proof.Gen.KernelIdeal.Frame
import proofs.«101798_g18949395710359_cont_8to1_993_6_alg».proof.Proof.BlockCell
import proofs.«101798_g18949395710359_cont_8to1_993_6_alg».proof.Proof.Cell
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Arrays

open Idealize.ShloMosaic Idealize.ShloMosaic.TcCoe Idealize.ShloMosaic.ValueIdx Idealize.SL.Sem Idealize.ShloMosaic.StableHlo
open Cert.KernelIdeal Cert.KernelIdeal.Gen Cert.Cell Cert.KernelIdeal.Block
open Idealize.ShloMosaic.Pipeline (Dat)

variable (m : (ℓ : Loc nD τ sig) → Buf (Elt Ideal) ℓ) (ρ : Dev nD → PrngReg)

/-- The four bias vectors as launched, as functions on their index type. -/
abbrev bi0A (c : Dev nD) : S2048.Idx → EReal := m ((c : Thread nD τ).loc main_arg5)
abbrev bh0A (c : Dev nD) : S2048.Idx → EReal := m ((c : Thread nD τ).loc main_arg6)
abbrev bi1A (c : Dev nD) : S2048.Idx → EReal := m ((c : Thread nD τ).loc main_arg9)
abbrev bh1A (c : Dev nD) : S2048.Idx → EReal := m ((c : Thread nD τ).loc main_arg10)

/-! ## The host operations before the region, read at an index -/

/-- The mask as numbers. -/
theorem V_mask (c : Dev nD) (i : S4096x1.Idx) :
    V m c main_v0 i = (((m ((c : Thread nD τ).loc main_arg2) i : BitVec 1).toNat : ℝ) : EReal) := by
  have e : (V m c main_v0 : S4096x1.Idx → EReal)
      = (uitofp (F := Ideal) .f32 (m ((c : Thread nD τ).loc main_arg2) : IVec S4096x1 1) : FVec Ideal S4096x1 .f32) := by
    show StableHlo.after (hostOps0 (F := Ideal)) (fun b => m (c, b)) (Proc.devRef .tc main_v0) = _
    after_results <;> rfl
  rw [e]; rfl

/-- The state flattened: entry `(n, q)` is slot `q / 512`, entry `q % 512` of row `n`. -/
theorem V_state (c : Dev nD) (n : Fin 4096) (q : Fin 2048) :
    V m c main_v1 (ix2 n q) = m ((c : Thread nD τ).loc main_arg1)
      (ix3 n (⟨q.val / 512, by have := q.isLt; omega⟩ : Fin 4) (⟨q.val % 512, Nat.mod_lt _ (by decide)⟩ : Fin 512)) := by
  have e : (V m c main_v1 : S4096x2048.Idx → EReal)
      = shapeCast S4096x2048 (m ((c : Thread nD τ).loc main_arg1) : S4096x4x512.Idx → EReal) shapeCasts_S4096x4x512_S4096x2048 := by
    show StableHlo.after (hostOps0 (F := Ideal)) (fun b => m (c, b)) (Proc.devRef .tc main_v1) = _
    after_results <;> rfl
  rw [e]
  refine shapeCast_apply (s := S4096x4x512) (t := S4096x2048) _ _ _ _ ?_
  rw [Shape.rowMajor_val_two, Shape.rowMajor_val_three]
  show (n.val * 4 + q.val / 512) * 512 + q.val % 512 = n.val * 2048 + q.val
  omega

/-- The first layer's two biases summed, as one row. -/
theorem V_bias0 (c : Dev nD) (u : Fin 1) (q : Fin 2048) :
    V m c main_v3 (ix2 u q) = bi0A m c (ix1 q) + bh0A m c (ix1 q) := by
  have e : (V m c main_v3 : S1x2048.Idx → EReal)
      = shapeCast S1x2048 (addf (bi0A m c : FVec Ideal S2048 .f32) (bh0A m c : FVec Ideal S2048 .f32) : FVec Ideal S2048 .f32) shapeCasts_S2048_S1x2048 := by
    show StableHlo.after (hostOps0 (F := Ideal)) (fun b => m (c, b)) (Proc.devRef .tc main_v3) = _
    after_results <;> rfl
  rw [e, shapeCast_a_1a_apply]; rfl

/-- The second layer's two biases summed, as one row. -/
theorem V_bias1 (c : Dev nD) (u : Fin 1) (q : Fin 2048) :
    V m c main_v5 (ix2 u q) = bi1A m c (ix1 q) + bh1A m c (ix1 q) := by
  have e : (V m c main_v5 : S1x2048.Idx → EReal)
      = shapeCast S1x2048 (addf (bi1A m c : FVec Ideal S2048 .f32) (bh1A m c : FVec Ideal S2048 .f32) : FVec Ideal S2048 .f32) shapeCasts_S2048_S1x2048 := by
    show StableHlo.after (hostOps0 (F := Ideal)) (fun b => m (c, b)) (Proc.devRef .tc main_v5) = _
    after_results <;> rfl
  rw [e, shapeCast_a_1a_apply]; rfl

/-! ## The grid: which block each window has at a point -/

/-- Decided over the 8 points: the row-blocked windows (input, state, mask, both outputs) are at block `t` of the rows and
    block `0` of the columns; the weights and biases are whole at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

theorem lt8 (t : Fin cfg0.N) : t.val < 8 := by
  have h := t.isLt; have h8 : cfg0.N = 8 := N_0; omega

/-- Row `p` of point `t`'s blocks is row `512 t + p` of the arrays. -/
def rowIx (t : Fin cfg0.N) (p : Fin 512) : Fin 4096 := ⟨t.val * 512 + p.val, by have := lt8 t; have := p.isLt; omega⟩

/-! ## Each loaded block at an index -/

theorem blk_x (c : Dev nD) (t : Fin cfg0.N) (p k : Fin 512) :
    iblk m c 0 t (ix2 p k) = m ((c : Thread nD τ).loc main_arg0) (ix2 (rowIx t p) k) := by
  rw [← V_main_arg0 m c]
  show V m c main_arg0 (((cfg0.win 0).blk t).view.emb (ix2 p k)) = V m c main_arg0 (ix2 (rowIx t p) k)
  refine congrArg _ (funext fun a => Fin.ext ?_)
  obtain ⟨e0, e1, -⟩ := idx_facts t
  match a with
  | ⟨0, _⟩ => show win0_0.index t (0 : Fin 2) * 512 + 1 * p.val = t.val * 512 + p.val; omega
  | ⟨1, _⟩ => show win0_0.index t (1 : Fin 2) * 512 + 1 * k.val = k.val; omega

theorem blk_state (c : Dev nD) (t : Fin cfg0.N) (p : Fin 512) (q : Fin 2048) :
    iblk m c 1 t (ix2 p q) = m ((c : Thread nD τ).loc main_arg1)
      (ix3 (rowIx t p) (⟨q.val / 512, by have := q.isLt; omega⟩ : Fin 4) (⟨q.val % 512, Nat.mod_lt _ (by decide)⟩ : Fin 512)) := by
  rw [← V_state m c]
  show V m c main_v1 (((cfg0.win 1).blk t).view.emb (ix2 p q)) = V m c main_v1 (ix2 (rowIx t p) q)
  refine congrArg _ (funext fun a => Fin.ext ?_)
  obtain ⟨-, -, e0, e1, -⟩ := idx_facts t
  match a with
  | ⟨0, _⟩ => show win0_1.index t (0 : Fin 2) * 512 + 1 * p.val = t.val * 512 + p.val; omega
  | ⟨1, _⟩ => show win0_1.index t (1 : Fin 2) * 2048 + 1 * q.val = q.val; omega

theorem blk_mask (c : Dev nD) (t : Fin cfg0.N) (p : Fin 512) (u : Fin 1) :
    iblk m c 2 t (ix2 p u)
      = (((m ((c : Thread nD τ).loc main_arg2) (ix2 (rowIx t p) (0 : Fin 1)) : BitVec 1).toNat : ℝ) : EReal) := by
  rw [← V_mask m c]
  show V m c main_v0 (((cfg0.win 2).blk t).view.emb (ix2 p u)) = V m c main_v0 (ix2 (rowIx t p) (0 : Fin 1))
  refine congrArg _ (funext fun a => Fin.ext ?_)
  obtain ⟨-, -, -, -, e0, e1, -⟩ := idx_facts t
  have hu : u.val = 0 := by omega
  match a with
  | ⟨0, _⟩ => show win0_2.index t (0 : Fin 2) * 512 + 1 * p.val = t.val * 512 + p.val; omega
  | ⟨1, _⟩ => show win0_2.index t (1 : Fin 2) * 1 + 1 * u.val = 0; omega

theorem blk_Wi0 (c : Dev nD) (t : Fin cfg0.N) (q : Fin 2048) (k : Fin 512) :
    iblk m c 3 t (ix2 q k) = m ((c : Thread nD τ).loc main_arg3) (ix2 q k) := by
  rw [← V_main_arg3 m c]
  show V m c main_arg3 (((cfg0.win 3).blk t).view.emb (ix2 q k)) = V m c main_arg3 (ix2 q k)
  refine congrArg _ (funext fun a => Fin.ext ?_)
  obtain ⟨-, -, -, -, -, -, e0, e1, -⟩ := idx_facts t
  match a with
  | ⟨0, _⟩ => show win0_3.index t (0 : Fin 2) * 2048 + 1 * q.val = q.val; omega
  | ⟨1, _⟩ => show win0_3.index t (1 : Fin 2) * 512 + 1 * k.val = k.val; omega

theorem blk_Wh0 (c : Dev nD) (t : Fin cfg0.N) (q : Fin 2048) (k : Fin 512) :
    iblk m c 4 t (ix2 q k) = m ((c : Thread nD τ).loc main_arg4) (ix2 q k) := by
  rw [← V_main_arg4 m c]
  show V m c main_arg4 (((cfg0.win 4).blk t).view.emb (ix2 q k)) = V m c main_arg4 (ix2 q k)
  refine congrArg _ (funext fun a => Fin.ext ?_)
  obtain ⟨-, -, -, -, -, -, -, -, e0, e1, -⟩ := idx_facts t
  match a with
  | ⟨0, _⟩ => show win0_4.index t (0 : Fin 2) * 2048 + 1 * q.val = q.val; omega
  | ⟨1, _⟩ => show win0_4.index t (1 : Fin 2) * 512 + 1 * k.val = k.val; omega

theorem blk_Wi1 (c : Dev nD) (t : Fin cfg0.N) (q : Fin 2048) (k : Fin 512) :
    iblk m c 5 t (ix2 q k) = m ((c : Thread nD τ).loc main_arg7) (ix2 q k) := by
  rw [← V_main_arg7 m c]
  show V m c main_arg7 (((cfg0.win 5).blk t).view.emb (ix2 q k)) = V m c main_arg7 (ix2 q k)
  refine congrArg _ (funext fun a => Fin.ext ?_)
  obtain ⟨-, -, -, -, -, -, -, -, -, -, e0, e1, -⟩ := idx_facts t
  match a with
  | ⟨0, _⟩ => show win0_5.index t (0 : Fin 2) * 2048 + 1 * q.val = q.val; omega
  | ⟨1, _⟩ => show win0_5.index t (1 : Fin 2) * 512 + 1 * k.val = k.val; omega

theorem blk_Wh1 (c : Dev nD) (t : Fin cfg0.N) (q : Fin 2048) (k : Fin 512) :
    iblk m c 6 t (ix2 q k) = m ((c : Thread nD τ).loc main_arg8) (ix2 q k) := by
  rw [← V_main_arg8 m c]
  show V m c main_arg8 (((cfg0.win 6).blk t).view.emb (ix2 q k)) = V m c main_arg8 (ix2 q k)
  refine congrArg _ (funext fun a => Fin.ext ?_)
  obtain ⟨-, -, -, -, -, -, -, -, -, -, -, -, e0, e1, -⟩ := idx_facts t
  match a with
  | ⟨0, _⟩ => show win0_6.index t (0 : Fin 2) * 2048 + 1 * q.val = q.val; omega
  | ⟨1, _⟩ => show win0_6.index t (1 : Fin 2) * 512 + 1 * k.val = k.val; omega

theorem blk_b0 (c : Dev nD) (t : Fin cfg0.N) (q : Fin 2048) :
    iblk m c 7 t (ix2 (0 : Fin 1) q)
      = bi0A m c (ix1 q) + bh0A m c (ix1 q) := by
  rw [← V_bias0 m c (0 : Fin 1) q]
  show V m c main_v3 (((cfg0.win 7).blk t).view.emb (ix2 (0 : Fin 1) q)) = V m c main_v3 (ix2 (0 : Fin 1) q)
  refine congrArg _ (funext fun a => Fin.ext ?_)
  obtain ⟨-, -, -, -, -, -, -, -, -, -, -, -, -, -, e0, e1, -⟩ := idx_facts t
  match a with
  | ⟨0, _⟩ => show win0_7.index t (0 : Fin 2) * 1 + 1 * 0 = 0; omega
  | ⟨1, _⟩ => show win0_7.index t (1 : Fin 2) * 2048 + 1 * q.val = q.val; omega

theorem blk_b1 (c : Dev nD) (t : Fin cfg0.N) (q : Fin 2048) :
    iblk m c 8 t (ix2 (0 : Fin 1) q)
      = bi1A m c (ix1 q) + bh1A m c (ix1 q) := by
  rw [← V_bias1 m c (0 : Fin 1) q]
  show V m c main_v5 (((cfg0.win 8).blk t).view.emb (ix2 (0 : Fin 1) q)) = V m c main_v5 (ix2 (0 : Fin 1) q)
  refine congrArg _ (funext fun a => Fin.ext ?_)
  obtain ⟨-, -, -, -, -, -, -, -, -, -, -, -, -, -, -, -, e0, e1, -⟩ := idx_facts t
  match a with
  | ⟨0, _⟩ => show win0_8.index t (0 : Fin 2) * 1 + 1 * 0 = 0; omega
  | ⟨1, _⟩ => show win0_8.index t (1 : Fin 2) * 2048 + 1 * q.val = q.val; omega

/-! ## The row of a point's blocks is the row of the arguments -/

/-- Row `n` of the arguments as launched. -/
abbrev argRow (c : Dev nD) (n : Fin 4096) : Row :=
  rowAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) n

theorem blkRow_eq (c : Dev nD) (t : Fin cfg0.N) (p : Fin 512) :
    blkRow (iblk m c 0 t) (iblk m c 1 t) (iblk m c 2 t) (iblk m c 3 t) (iblk m c 4 t) (iblk m c 5 t) (iblk m c 6 t)
      (iblk m c 7 t) (iblk m c 8 t) p = argRow m c (rowIx t p) := by
  unfold blkRow argRow rowAt
  congr 1
  · funext k; exact blk_x m c t p k
  · funext q; rw [blk_state m c t p q, blk_mask m c t p (0 : Fin 1)]; rfl
  · funext q k; exact blk_Wi0 m c t q k
  · funext q k; exact blk_Wh0 m c t q k
  · funext q k; exact blk_Wi1 m c t q k
  · funext q k; exact blk_Wh1 m c t q k
  · funext q; exact blk_b0 m c t q
  · funext q; exact blk_b1 m c t q

/-! ## The two output buffers after the body, read at an index -/

theorem hz : (![0, 0] : Fin 2 → Nat) = fun _ => 0 := funext fun a => by fin_cases a <;> rfl

section Buffers

variable (x0 : Vec Ideal S512x512 .f32) (x1 : Vec Ideal S512x2048 .f32) (x2 : Vec Ideal S512x1 .f32)
  (x3 x4 x5 x6 : Vec Ideal S2048x512 .f32) (x7 x8 : Vec Ideal S1x2048 .f32)

/-- The output's buffer, one store of the whole block: row `p`'s second-layer hidden state. -/
theorem out0_9_apply (p q : Fin 512) : out0_9 x0 x1 x2 x3 x4 x5 x6 x7 x8 (ix2 p q) = (blkRow x0 x1 x2 x3 x4 x5 x6 x7 x8 p).h1 q := by
  unfold out0_9
  rw [View.canon_unit_zero hz]
  simp only [View.ld_unit_zero (S := S512x1) hz, View.ld_unit_zero (S := S512x2048) hz, View.ld_unit_zero (S := S512x512) hz, View.ld_unit_zero (S := S2048x512) hz, View.ld_unit_zero (S := S1x2048) hz]
  exact h1_blk x0 x1 x2 x3 x4 x5 x6 x7 x8 p q

/-- The state's buffer, four stores side by side, each a run of 512 columns: row `p`'s written-back state. -/
theorem out0_10_apply (p : Fin 512) (q : Fin 2048) : out0_10 x0 x1 x2 x3 x4 x5 x6 x7 x8 (ix2 p q) = (blkRow x0 x1 x2 x3 x4 x5 x6 x7 x8 p).flat q := by
  unfold out0_10
  simp only [View.ld_unit_zero (S := S512x1) hz, View.ld_unit_zero (S := S512x2048) hz, View.ld_unit_zero (S := S512x512) hz, View.ld_unit_zero (S := S2048x512) hz, View.ld_unit_zero (S := S1x2048) hz]
  refine (View.canon_apply_of_pieces
    (fun y : S512x2048.Idx => (blkRow x0 x1 x2 x3 x4 x5 x6 x7 x8 ⟨(y 0).val, (y 0).isLt⟩).flat ⟨(y 1).val, (y 1).isLt⟩) _ ?_ (ix2 p q)
    (cover0_10 _ _ _ _ (ix2 p q))).trans rfl
  intro pc hpc x
  simp only [List.mem_cons, List.mem_nil_iff, or_false] at hpc
  rcases hpc with rfl | rfl | rfl | rfl
  · obtain ⟨a, j, rfl⟩ : ∃ (a : Fin 512) (j : Fin 512), x = (ix2 a j : S512x512.Idx) := ⟨x 0, x 1, eq_ix2 (n0 := 512) (n1 := 512) x⟩
    refine (c1_blk x0 x1 x2 x3 x4 x5 x6 x7 x8 a j).trans (((blkRow x0 x1 x2 x3 x4 x5 x6 x7 x8 a).flat_colO j).symm.trans ?_)
    refine congrArg₂ (fun (r : Fin 512) (s : Fin 2048) => (blkRow x0 x1 x2 x3 x4 x5 x6 x7 x8 r).flat s) (Fin.ext ?_) (Fin.ext ?_)
    · show a.val = 0 + 1 * a.val; omega
    · show 1536 + j.val = 1536 + 1 * j.val; omega
  · obtain ⟨a, j, rfl⟩ : ∃ (a : Fin 512) (j : Fin 512), x = (ix2 a j : S512x512.Idx) := ⟨x 0, x 1, eq_ix2 (n0 := 512) (n1 := 512) x⟩
    refine (c0_blk x0 x1 x2 x3 x4 x5 x6 x7 x8 a j).trans (((blkRow x0 x1 x2 x3 x4 x5 x6 x7 x8 a).flat_colG j).symm.trans ?_)
    refine congrArg₂ (fun (r : Fin 512) (s : Fin 2048) => (blkRow x0 x1 x2 x3 x4 x5 x6 x7 x8 r).flat s) (Fin.ext ?_) (Fin.ext ?_)
    · show a.val = 0 + 1 * a.val; omega
    · show 1024 + j.val = 1024 + 1 * j.val; omega
  · obtain ⟨a, j, rfl⟩ : ∃ (a : Fin 512) (j : Fin 512), x = (ix2 a j : S512x512.Idx) := ⟨x 0, x 1, eq_ix2 (n0 := 512) (n1 := 512) x⟩
    refine (h1_blk x0 x1 x2 x3 x4 x5 x6 x7 x8 a j).trans (((blkRow x0 x1 x2 x3 x4 x5 x6 x7 x8 a).flat_colF j).symm.trans ?_)
    refine congrArg₂ (fun (r : Fin 512) (s : Fin 2048) => (blkRow x0 x1 x2 x3 x4 x5 x6 x7 x8 r).flat s) (Fin.ext ?_) (Fin.ext ?_)
    · show a.val = 0 + 1 * a.val; omega
    · show 512 + j.val = 512 + 1 * j.val; omega
  · obtain ⟨a, j, rfl⟩ : ∃ (a : Fin 512) (j : Fin 512), x = (ix2 a j : S512x512.Idx) := ⟨x 0, x 1, eq_ix2 (n0 := 512) (n1 := 512) x⟩
    refine (h0_blk x0 x1 x2 x3 x4 x5 x6 x7 x8 a j).trans (((blkRow x0 x1 x2 x3 x4 x5 x6 x7 x8 a).flat_colI j).symm.trans ?_)
    refine congrArg₂ (fun (r : Fin 512) (s : Fin 2048) => (blkRow x0 x1 x2 x3 x4 x5 x6 x7 x8 r).flat s) (Fin.ext ?_) (Fin.ext ?_)
    · show a.val = 0 + 1 * a.val; omega
    · show j.val = 0 + 1 * j.val; omega

end Buffers

/-! ## The specification's arrays of the arguments as launched -/

abbrev outA (c : Dev nD) : S4096x512.Idx → EReal := outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
abbrev hidA (c : Dev nD) : S4096x4x512.Idx → EReal := hidArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
/-- The written-back state rows, flat: what the region leaves before the host cuts the rows into slots. -/
def flatA (c : Dev nD) : S4096x2048.Idx → EReal :=
  fun i => (argRow m c ⟨(i 0).val, (i 0).isLt⟩).flat ⟨(i 1).val, (i 1).isLt⟩

/-! ## What a point writes back, the cover, and the arrays after the run -/

theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)

theorem flushed9_eq (c : Dev nD) (t : Fin cfg0.N) :
    (dats m 0 c).flushed 9 t = ((cfg0.win 9).blk t).view.read (Elt Ideal) (outA m c) := by
  show (cfg0.win 9).cut (grid0.coords t) ((dats m 0 c).after 9 t) = _
  rw [after0_9]
  refine funext fun (j : S512x512.Idx) => ?_
  obtain ⟨p, q, rfl⟩ : ∃ (p : Fin 512) (q : Fin 512), j = ix2 p q := ⟨j 0, j 1, eq_ix2 j⟩
  refine (out0_9_apply (iblk m c 0 t) (iblk m c 1 t) (iblk m c 2 t) (iblk m c 3 t) (iblk m c 4 t) (iblk m c 5 t) (iblk m c 6 t) (iblk m c 7 t) (iblk m c 8 t) p q).trans ?_
  rw [blkRow_eq m c t p]
  have he : ((cfg0.win 9).blk t).view.emb (ix2 p q) = ix2 (rowIx t p) q := funext fun a => Fin.ext (by
    obtain ⟨e0, e1⟩ := idx9 t
    match a with
    | ⟨0, _⟩ => show win0_9.index t (0 : Fin 2) * 512 + 1 * p.val = t.val * 512 + p.val; omega
    | ⟨1, _⟩ => show win0_9.index t (1 : Fin 2) * 512 + 1 * q.val = q.val; omega)
  show _ = outA m c (((cfg0.win 9).blk t).view.emb (ix2 p q))
  rw [he]
  rfl

theorem flushed10_eq (c : Dev nD) (t : Fin cfg0.N) :
    (dats m 0 c).flushed 10 t = ((cfg0.win 10).blk t).view.read (Elt Ideal) (flatA m c) := by
  show (cfg0.win 10).cut (grid0.coords t) ((dats m 0 c).after 10 t) = _
  rw [after0_10]
  refine funext fun (j : S512x2048.Idx) => ?_
  obtain ⟨p, q, rfl⟩ : ∃ (p : Fin 512) (q : Fin 2048), j = ix2 p q := ⟨j 0, j 1, eq_ix2 j⟩
  refine (out0_10_apply (iblk m c 0 t) (iblk m c 1 t) (iblk m c 2 t) (iblk m c 3 t) (iblk m c 4 t) (iblk m c 5 t) (iblk m c 6 t) (iblk m c 7 t) (iblk m c 8 t) p q).trans ?_
  rw [blkRow_eq m c t p]
  have he : ((cfg0.win 10).blk t).view.emb (ix2 p q) = ix2 (rowIx t p) q := funext fun a => Fin.ext (by
    obtain ⟨e0, e1⟩ := idx10 t
    match a with
    | ⟨0, _⟩ => show win0_10.index t (0 : Fin 2) * 512 + 1 * p.val = t.val * 512 + p.val; omega
    | ⟨1, _⟩ => show win0_10.index t (1 : Fin 2) * 2048 + 1 * q.val = q.val; omega)
  show _ = flatA m c (((cfg0.win 10).blk t).view.emb (ix2 p q))
  rw [he]
  rfl

theorem mem_blk9 (t : Fin cfg0.N) (i : S4096x512.Idx) :
    i ∈ ((cfg0.win 9).blk t).view.set ↔ ∀ a : Fin 2, win0_9.index t a * S512x512.size a ≤ (i a).val
      ∧ (i a).val < win0_9.index t a * S512x512.size a + S512x512.size a := by
  show i ∈ ((View.whole main_v6_0).slice (win0_9.rect t)).set ↔ _
  rw [View.set_slice_whole, Rect.mem_set_unit]
  exact Iff.rfl

theorem mem_blk10 (t : Fin cfg0.N) (i : S4096x2048.Idx) :
    i ∈ ((cfg0.win 10).blk t).view.set ↔ ∀ a : Fin 2, win0_10.index t a * S512x2048.size a ≤ (i a).val
      ∧ (i a).val < win0_10.index t a * S512x2048.size a + S512x2048.size a := by
  show i ∈ ((View.whole main_v6_1).slice (win0_10.rect t)).set ↔ _
  rw [View.set_slice_whole, Rect.mem_set_unit]
  exact Iff.rfl

/-- Row `r` is in the block of point `r / 512`: the 8 blocks cover the 4096 rows. -/
theorem cover9 (i : S4096x512.Idx) :
    ∃ t : Fin cfg0.N, (cfg0.win 9).flush t = true ∧ i ∈ ((cfg0.win 9).blk t).view.set := by
  have hi0 : (i 0).val < 4096 := (i 0).isLt
  have hi1 : (i 1).val < 512 := (i 1).isLt
  have h8 : cfg0.N = 8 := N_0
  have h8' : grid0.N = 8 := N_0
  refine ⟨⟨(i 0).val / 512, by omega⟩, flush0_9 _, ?_⟩
  rw [mem_blk9]
  obtain ⟨e0, e1⟩ := idx9 ⟨(i 0).val / 512, by omega⟩
  intro a
  match a with
  | ⟨0, _⟩ =>
    show win0_9.index ⟨(i 0).val / 512, _⟩ (0 : Fin 2) * 512 ≤ (i 0).val ∧ (i 0).val < win0_9.index ⟨(i 0).val / 512, _⟩ (0 : Fin 2) * 512 + 512
    have e0' : win0_9.index ⟨(i 0).val / 512, by omega⟩ (0 : Fin 2) = (i 0).val / 512 := e0
    omega
  | ⟨1, _⟩ =>
    show win0_9.index ⟨(i 0).val / 512, _⟩ (1 : Fin 2) * 512 ≤ (i 1).val ∧ (i 1).val < win0_9.index ⟨(i 0).val / 512, _⟩ (1 : Fin 2) * 512 + 512
    omega

theorem cover10 (i : S4096x2048.Idx) :
    ∃ t : Fin cfg0.N, (cfg0.win 10).flush t = true ∧ i ∈ ((cfg0.win 10).blk t).view.set := by
  have hi0 : (i 0).val < 4096 := (i 0).isLt
  have hi1 : (i 1).val < 2048 := (i 1).isLt
  have h8 : cfg0.N = 8 := N_0
  have h8' : grid0.N = 8 := N_0
  refine ⟨⟨(i 0).val / 512, by omega⟩, flush0_10 _, ?_⟩
  rw [mem_blk10]
  obtain ⟨e0, e1⟩ := idx10 ⟨(i 0).val / 512, by omega⟩
  intro a
  match a with
  | ⟨0, _⟩ =>
    show win0_10.index ⟨(i 0).val / 512, _⟩ (0 : Fin 2) * 512 ≤ (i 0).val ∧ (i 0).val < win0_10.index ⟨(i 0).val / 512, _⟩ (0 : Fin 2) * 512 + 512
    have e0' : win0_10.index ⟨(i 0).val / 512, by omega⟩ (0 : Fin 2) = (i 0).val / 512 := e0
    omega
  | ⟨1, _⟩ =>
    show win0_10.index ⟨(i 0).val / 512, _⟩ (1 : Fin 2) * 2048 ≤ (i 1).val ∧ (i 1).val < win0_10.index ⟨(i 0).val / 512, _⟩ (1 : Fin 2) * 2048 + 2048
    omega

/-- The output array after the run. -/
theorem final9 (c : Dev nD) : (dats m 0 c).arrAt 9 cfg0.N = outA m c :=
  (dats m 0 c).arrAt_eq_of_cover 9 (outA m c) (fun t _ => flushed9_eq m c t) cover9

/-- The state rows after the run, still flat. -/
theorem final10 (c : Dev nD) : (dats m 0 c).arrAt 10 cfg0.N = flatA m c :=
  (dats m 0 c).arrAt_eq_of_cover 10 (flatA m c) (fun t _ => flushed10_eq m c t) cover10

/-! ## The host operation after the region, and the run -/

/-- The state result: the written-back rows cut into their four slots. -/
theorem tail_v7 (c : Dev nD) :
    Pipeline.afterTail₀ cfgs (dats m) 0 (V0 m) [hostOps1] c main_v7 = hidA m c := by
  unfold Pipeline.afterTail₀
  show StableHlo.after (hostOps1 (F := Ideal)) _ (Proc.devRef .tc main_v7) = _
  after_results
  funext i
  obtain ⟨n, l, k, rfl⟩ : ∃ (n : Fin 4096) (l : Fin 4) (k : Fin 512), i = ix3 n l k := ⟨i 0, i 1, i 2, eq_ix3 i⟩
  have hw := (Pipeline.withArrays_arr spec0 launch0.win.arr_inj c (V0 m c)
    (fun w => (dats m 0 c).arrAt w (cfgs 0).N) 10).trans (final10 m c)
  show shapeCast S4096x4x512 (Pipeline.withArrays (cfgs 0).spec c (V0 m c) (fun w => (dats m 0 c).arrAt w (cfgs 0).N)
    (Proc.devRef .tc main_v6_1)) shapeCasts_S4096x2048_S4096x4x512 (ix3 n l k) = _
  rw [hw]
  refine (shapeCast_apply (s := S4096x2048) (t := S4096x4x512) (flatA m c) _ (ix3 n l k)
    (ix2 n (⟨l.val * 512 + k.val, by have := l.isLt; have := k.isLt; omega⟩ : Fin 2048)) ?_).trans ?_
  · rw [Shape.rowMajor_val_two, Shape.rowMajor_val_three]
    show n.val * 2048 + (l.val * 512 + k.val) = (n.val * 4 + l.val) * 512 + k.val
    omega
  · show (argRow m c n).flat ⟨l.val * 512 + k.val, _⟩ = (argRow m c n).slot l k
    exact Row.flat_of _ _ l k rfl

/-- Every weakly fair execution of the idealized kernel terminates with the output at the specification's output array,
    the state result at the specification's state array, and the arguments unchanged. -/
theorem run : θ_run defs (onTc (τ := τ) (main (F := Ideal))) ⟨m, fun _ => 0, ρ⟩ (fun r => ∀ c : Dev nD,
      r.2.mem ((c.tc : Thread nD τ).loc main_v6_0) = outA m c
      ∧ r.2.mem ((c.tc : Thread nD τ).loc main_v7) = hidA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨((h c).1 9).trans (final9 m c),
      ((h c).2 main_v7 (Pipeline.mem_restRefs_of main_v7 (by decide) (by decide))).trans (tail_v7 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).1 5).trans (((dats m 0 c).arrAt_in 5 rfl _).trans ((A_eq m c 5).trans (V_main_arg7 m c))),
      ((h c).1 6).trans (((dats m 0 c).arrAt_in 6 rfl _).trans ((A_eq m c 6).trans (V_main_arg8 m c))),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.KernelIdeal.Arrays

end
-- ==== Proof.RefCell.lean ====
/-
  The reference program, read one row at a time.

  The reference computes the same two-layer cell as `Cell.lean` describes, arranged differently: the carried state is
  transposed to slot-major order `[4, 4096, 512]`, reset by a choice between the entry and zero, and cut into its four
  slots; each layer's gates are two products against transposed weight matrices with the two biases added one after the
  other; the logistic function is spelt `1 / (1 + exp (-x))`; the new state is the four new slots laid end to end and
  transposed back.  Every stage below is stated at an index given by its coordinates — a row `n`, a gate column `q` of
  2048 or an entry `j`, `k` of 512 — and rewrites with the stages before it, so that a layer's gates are read once
  although the cell uses them four times.  The last two theorems say that the reference's two results are `Cell.outArr`
  and `Cell.hidArr` of the eleven argument arrays.
-/
import proofs.«101798_g18949395710359_cont_8to1_993_6_alg».proof.Proof.Gen.ReferenceIdeal.Read
import proofs.«101798_g18949395710359_cont_8to1_993_6_alg».proof.Proof.Cell
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefCell

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (x0 : (⟨S4096x512, .f32⟩ : BufTy).Contents (Elt Ideal)) (x1 : (⟨S4096x4x512, .f32⟩ : BufTy).Contents (Elt Ideal))
  (x2 : (⟨S4096x1, .i1⟩ : BufTy).Contents (Elt Ideal))
  (x3 x4 : (⟨S2048x512, .f32⟩ : BufTy).Contents (Elt Ideal)) (x5 x6 : (⟨S2048, .f32⟩ : BufTy).Contents (Elt Ideal))
  (x7 x8 : (⟨S2048x512, .f32⟩ : BufTy).Contents (Elt Ideal)) (x9 x10 : (⟨S2048, .f32⟩ : BufTy).Contents (Elt Ideal))

/-! ## The carried state after the reset, slot by slot -/

/-- Entry `q = 512 · l + k` of row `n`'s state is slot `l`, entry `k`, kept or zeroed by the row's mask bit. -/
theorem row_s (n : Fin 4096) (l : Fin 4) (k : Fin 512) (q : Fin 2048) (hq : q.val = 512 * l.val + k.val) :
    (Cert.Cell.rowAt x0 x1 x2 x3 x4 x5 x6 x7 x8 x9 x10 n).s q = Cert.Cell.keep (x2 (ix2 n (0 : Fin 1))) (x1 (ix3 n l k)) := by
  have hl : (⟨q.val / 512, by have := q.isLt; omega⟩ : Fin 4) = l :=
    Fin.ext (by show q.val / 512 = l.val; have := k.isLt; omega)
  have hk : (⟨q.val % 512, Nat.mod_lt _ (by decide)⟩ : Fin 512) = k :=
    Fin.ext (by show q.val % 512 = k.val; have := k.isLt; omega)
  show Cert.Cell.keep (x2 (ix2 n (0 : Fin 1)))
    (x1 (ix3 n (⟨q.val / 512, by have := q.isLt; omega⟩ : Fin 4) (⟨q.val % 512, Nat.mod_lt _ (by decide)⟩ : Fin 512))) = _
  rw [hl, hk]

/-- The transposed state after the reset, at slot `l`, row `n`, entry `k`: the entry where the row's mask bit is set,
    zero where it is not — as a product with the bit. -/
theorem reset_at (l : Fin 4) (n : Fin 4096) (k : Fin 512) :
    val_main_v2 (F := Ideal) x1 x2 (ix3 l n k) = Cert.Cell.keep (x2 (ix2 n (0 : Fin 1))) (x1 (ix3 n l k)) := by
  have e0 : idx_main_v0 (ix3 l n k) = ix3 n l k := funext fun a => Fin.ext (by match a with | ⟨0, _⟩ => rfl | ⟨1, _⟩ => rfl | ⟨2, _⟩ => rfl)
  have e1 : idx_main_v1 (idx_main_call0_v0 (ix3 l n k)) = ix2 n (0 : Fin 1) :=
    funext fun a => Fin.ext (by
      match a with
      | ⟨0, _⟩ => show ((0 * 4096 + n.val) * 1 + 0) / 1 = n.val; omega
      | ⟨1, _⟩ => rfl)
  rw [val_main_v2_apply, val_main_call0_v0_apply, val_main_v1_apply, val_main_v0_apply, val_main_call0_v1_apply, val_main_cst_apply, e0, e1]
  exact Cert.Cell.select_eq_keep _ _

/-- Layer 0's hidden state of row `n` is slot 0 of its state. -/
theorem hid0_at (n : Fin 4096) (k : Fin 512) :
    val_main_v11 (F := Ideal) x1 x2 (ix2 n k) = (Cert.Cell.rowAt x0 x1 x2 x3 x4 x5 x6 x7 x8 x9 x10 n).s (Cert.Cell.colI k) := by
  have e : idx_main_v3 (idx_main_v10 (idx_main_v11 (ix2 n k))) = ix3 (0 : Fin 4) n k :=
    funext fun a => Fin.ext (by
      match a with
      | ⟨0, _⟩ => rfl
      | ⟨1, _⟩ => show (n.val * 512 + k.val) / 512 % 4096 = n.val; have := n.isLt; have := k.isLt; omega
      | ⟨2, _⟩ => show (n.val * 512 + k.val) % 512 = k.val; have := k.isLt; omega)
  rw [val_main_v11_apply, val_main_v10_apply, val_main_v3_apply, e, reset_at]
  exact (row_s x0 x1 x2 x3 x4 x5 x6 x7 x8 x9 x10 n (0 : Fin 4) k (Cert.Cell.colI k) (by show k.val = 512 * 0 + k.val; omega)).symm

/-- Layer 1's hidden state of row `n` is slot 1. -/
theorem hid1_at (n : Fin 4096) (k : Fin 512) :
    val_main_v54 (F := Ideal) x1 x2 (ix2 n k) = (Cert.Cell.rowAt x0 x1 x2 x3 x4 x5 x6 x7 x8 x9 x10 n).s (Cert.Cell.colF k) := by
  have e : idx_main_v3 (idx_main_v53 (idx_main_v54 (ix2 n k))) = ix3 (1 : Fin 4) n k :=
    funext fun a => Fin.ext (by
      match a with
      | ⟨0, _⟩ => rfl
      | ⟨1, _⟩ => show (n.val * 512 + k.val) / 512 % 4096 = n.val; have := n.isLt; have := k.isLt; omega
      | ⟨2, _⟩ => show (n.val * 512 + k.val) % 512 = k.val; have := k.isLt; omega)
  rw [val_main_v54_apply, val_main_v53_apply, val_main_v3_apply, e, reset_at]
  exact (row_s x0 x1 x2 x3 x4 x5 x6 x7 x8 x9 x10 n (1 : Fin 4) k (Cert.Cell.colF k) (by show 512 + k.val = 512 * 1 + k.val; omega)).symm

/-- Layer 0's cell state of row `n` is slot 2. -/
theorem cel0_at (n : Fin 4096) (k : Fin 512) :
    val_main_v29 (F := Ideal) x1 x2 (ix2 n k) = (Cert.Cell.rowAt x0 x1 x2 x3 x4 x5 x6 x7 x8 x9 x10 n).s (Cert.Cell.colG k) := by
  have e : idx_main_v4 (idx_main_v28 (idx_main_v29 (ix2 n k))) = ix3 (2 : Fin 4) n k :=
    funext fun a => Fin.ext (by
      match a with
      | ⟨0, _⟩ => rfl
      | ⟨1, _⟩ => show (n.val * 512 + k.val) / 512 % 4096 = n.val; have := n.isLt; have := k.isLt; omega
      | ⟨2, _⟩ => show (n.val * 512 + k.val) % 512 = k.val; have := k.isLt; omega)
  rw [val_main_v29_apply, val_main_v28_apply, val_main_v4_apply, e, reset_at]
  exact (row_s x0 x1 x2 x3 x4 x5 x6 x7 x8 x9 x10 n (2 : Fin 4) k (Cert.Cell.colG k) (by show 1024 + k.val = 512 * 2 + k.val; omega)).symm

/-- Layer 1's cell state of row `n` is slot 3. -/
theorem cel1_at (n : Fin 4096) (k : Fin 512) :
    val_main_v72 (F := Ideal) x1 x2 (ix2 n k) = (Cert.Cell.rowAt x0 x1 x2 x3 x4 x5 x6 x7 x8 x9 x10 n).s (Cert.Cell.colO k) := by
  have e : idx_main_v4 (idx_main_v71 (idx_main_v72 (ix2 n k))) = ix3 (3 : Fin 4) n k :=
    funext fun a => Fin.ext (by
      match a with
      | ⟨0, _⟩ => rfl
      | ⟨1, _⟩ => show (n.val * 512 + k.val) / 512 % 4096 = n.val; have := n.isLt; have := k.isLt; omega
      | ⟨2, _⟩ => show (n.val * 512 + k.val) % 512 = k.val; have := k.isLt; omega)
  rw [val_main_v72_apply, val_main_v71_apply, val_main_v4_apply, e, reset_at]
  exact (row_s x0 x1 x2 x3 x4 x5 x6 x7 x8 x9 x10 n (3 : Fin 4) k (Cert.Cell.colO k) (by show 1536 + k.val = 512 * 3 + k.val; omega)).symm

/-! ## Layer 0 -/

/-- The input's product with the transposed input weights, at row `n` and gate column `q`: the sum over the 512 entries of the row. -/
theorem dotx0_at (n : Fin 4096) (q : Fin 2048) :
    val_main_v6 (F := Ideal) x0 x3 (ix2 n q) = ∑ k : Fin 512, x0 (ix2 n k) * x3 (ix2 q k) := by
  rw [val_main_v6_apply]
  refine Finset.sum_congr rfl fun k _ => ?_
  have el : lidx_main_v6 (ix2 n q) k = ix2 n k := funext fun a => Fin.ext (by match a with | ⟨0, _⟩ => rfl | ⟨1, _⟩ => rfl)
  have er : idx_main_v5 (ridx_main_v6 (ix2 n q) k) = ix2 q k := funext fun a => Fin.ext (by match a with | ⟨0, _⟩ => rfl | ⟨1, _⟩ => rfl)
  rw [val_main_v5_apply, el, er]

/-- The hidden state's product with the transposed recurrent weights. -/
theorem doth0_at (n : Fin 4096) (q : Fin 2048) :
    val_main_v13 (F := Ideal) x1 x2 x4 (ix2 n q) = ∑ k : Fin 512, (Cert.Cell.rowAt x0 x1 x2 x3 x4 x5 x6 x7 x8 x9 x10 n).s (Cert.Cell.colI k) * x4 (ix2 q k) := by
  rw [val_main_v13_apply]
  refine Finset.sum_congr rfl fun k _ => ?_
  have el : lidx_main_v13 (ix2 n q) k = ix2 n k := funext fun a => Fin.ext (by match a with | ⟨0, _⟩ => rfl | ⟨1, _⟩ => rfl)
  have er : idx_main_v12 (ridx_main_v13 (ix2 n q) k) = ix2 q k := funext fun a => Fin.ext (by match a with | ⟨0, _⟩ => rfl | ⟨1, _⟩ => rfl)
  rw [val_main_v12_apply, el, er, hid0_at x0 x1 x2 x3 x4 x5 x6 x7 x8 x9 x10]

/-- The input bias, broadcast over the rows. -/
theorem bi0_at (n : Fin 4096) (q : Fin 2048) : val_main_v8 (F := Ideal) x5 (ix2 n q) = x5 (ix1 q) := by
  have e : idx_main_v7 (idx_main_v8 (ix2 n q)) = ix1 q := funext fun a => Fin.ext (by match a with | ⟨0, _⟩ => rfl)
  rw [val_main_v8_apply, val_main_v7_apply, e]

/-- The recurrent bias, broadcast over the rows. -/
theorem bh0_at (n : Fin 4096) (q : Fin 2048) : val_main_v16 (F := Ideal) x6 (ix2 n q) = x6 (ix1 q) := by
  have e : idx_main_v15 (idx_main_v16 (ix2 n q)) = ix1 q := funext fun a => Fin.ext (by match a with | ⟨0, _⟩ => rfl)
  rw [val_main_v16_apply, val_main_v15_apply, e]

/-- Layer 0's gate pre-activations of row `n` at column `q`. -/
theorem g0_at (n : Fin 4096) (q : Fin 2048) :
    val_main_v17 (F := Ideal) x0 x1 x2 x3 x4 x5 x6 (ix2 n q) = (Cert.Cell.rowAt x0 x1 x2 x3 x4 x5 x6 x7 x8 x9 x10 n).g0 q := by
  rw [val_main_v17_apply, val_main_v14_apply, val_main_v9_apply, dotx0_at, bi0_at, doth0_at x0 x1 x2 x3 x4 x5 x6 x7 x8 x9 x10, bh0_at]
  exact Cert.Cell.pre_two_biases (fun k => x0 (ix2 n k)) (fun k => (Cert.Cell.rowAt x0 x1 x2 x3 x4 x5 x6 x7 x8 x9 x10 n).s (Cert.Cell.colI k))
    (fun q k => x3 (ix2 q k)) (fun q k => x4 (ix2 q k)) (fun q => x5 (ix1 q)) (fun q => x6 (ix1 q)) q

/-- The input gate's run of columns. -/
theorem gi0_at (n : Fin 4096) (j : Fin 512) :
    val_main_v18 (F := Ideal) x0 x1 x2 x3 x4 x5 x6 (ix2 n j) = (Cert.Cell.rowAt x0 x1 x2 x3 x4 x5 x6 x7 x8 x9 x10 n).g0 (Cert.Cell.colI j) := by
  have e : idx_main_v18 (ix2 n j) = ix2 n (Cert.Cell.colI j) := funext fun a => Fin.ext (by match a with | ⟨0, _⟩ => rfl | ⟨1, _⟩ => rfl)
  rw [val_main_v18_apply, e, g0_at x0 x1 x2 x3 x4 x5 x6 x7 x8 x9 x10]

/-- The forget gate's run of columns. -/
theorem gf0_at (n : Fin 4096) (j : Fin 512) :
    val_main_v19 (F := Ideal) x0 x1 x2 x3 x4 x5 x6 (ix2 n j) = (Cert.Cell.rowAt x0 x1 x2 x3 x4 x5 x6 x7 x8 x9 x10 n).g0 (Cert.Cell.colF j) := by
  have e : idx_main_v19 (ix2 n j) = ix2 n (Cert.Cell.colF j) := funext fun a => Fin.ext (by match a with | ⟨0, _⟩ => rfl | ⟨1, _⟩ => rfl)
  rw [val_main_v19_apply, e, g0_at x0 x1 x2 x3 x4 x5 x6 x7 x8 x9 x10]

/-- The candidate's run of columns. -/
theorem gg0_at (n : Fin 4096) (j : Fin 512) :
    val_main_v20 (F := Ideal) x0 x1 x2 x3 x4 x5 x6 (ix2 n j) = (Cert.Cell.rowAt x0 x1 x2 x3 x4 x5 x6 x7 x8 x9 x10 n).g0 (Cert.Cell.colG j) := by
  have e : idx_main_v20 (ix2 n j) = ix2 n (Cert.Cell.colG j) := funext fun a => Fin.ext (by match a with | ⟨0, _⟩ => rfl | ⟨1, _⟩ => rfl)
  rw [val_main_v20_apply, e, g0_at x0 x1 x2 x3 x4 x5 x6 x7 x8 x9 x10]

/-- The output gate's run of columns. -/
theorem go0_at (n : Fin 4096) (j : Fin 512) :
    val_main_v21 (F := Ideal) x0 x1 x2 x3 x4 x5 x6 (ix2 n j) = (Cert.Cell.rowAt x0 x1 x2 x3 x4 x5 x6 x7 x8 x9 x10 n).g0 (Cert.Cell.colO j) := by
  have e : idx_main_v21 (ix2 n j) = ix2 n (Cert.Cell.colO j) := funext fun a => Fin.ext (by match a with | ⟨0, _⟩ => rfl | ⟨1, _⟩ => rfl)
  rw [val_main_v21_apply, e, g0_at x0 x1 x2 x3 x4 x5 x6 x7 x8 x9 x10]

/-- The forget gate: the logistic function of its pre-activation. -/
theorem sf0_at (n : Fin 4096) (j : Fin 512) :
    val_main_v27 (F := Ideal) x0 x1 x2 x3 x4 x5 x6 (ix2 n j) = Cert.Cell.sg ((Cert.Cell.rowAt x0 x1 x2 x3 x4 x5 x6 x7 x8 x9 x10 n).g0 (Cert.Cell.colF j)) := by
  rw [val_main_v27_apply, val_main_v26_apply, val_main_cst_1_apply, val_main_v25_apply, val_main_v24_apply, val_main_cst_0_apply, val_main_v23_apply, val_main_v22_apply, gf0_at x0 x1 x2 x3 x4 x5 x6 x7 x8 x9 x10]
  exact Cert.Cell.div_exp_eq_sg _

/-- The input gate. -/
theorem si0_at (n : Fin 4096) (j : Fin 512) :
    val_main_v36 (F := Ideal) x0 x1 x2 x3 x4 x5 x6 (ix2 n j) = Cert.Cell.sg ((Cert.Cell.rowAt x0 x1 x2 x3 x4 x5 x6 x7 x8 x9 x10 n).g0 (Cert.Cell.colI j)) := by
  rw [val_main_v36_apply, val_main_v35_apply, val_main_cst_3_apply, val_main_v34_apply, val_main_v33_apply, val_main_cst_2_apply, val_main_v32_apply, val_main_v31_apply, gi0_at x0 x1 x2 x3 x4 x5 x6 x7 x8 x9 x10]
  exact Cert.Cell.div_exp_eq_sg _

/-- The output gate. -/
theorem so0_at (n : Fin 4096) (j : Fin 512) :
    val_main_v45 (F := Ideal) x0 x1 x2 x3 x4 x5 x6 (ix2 n j) = Cert.Cell.sg ((Cert.Cell.rowAt x0 x1 x2 x3 x4 x5 x6 x7 x8 x9 x10 n).g0 (Cert.Cell.colO j)) := by
  rw [val_main_v45_apply, val_main_v44_apply, val_main_cst_5_apply, val_main_v43_apply, val_main_v42_apply, val_main_cst_4_apply, val_main_v41_apply, val_main_v40_apply, go0_at x0 x1 x2 x3 x4 x5 x6 x7 x8 x9 x10]
  exact Cert.Cell.div_exp_eq_sg _

/-- Layer 0's new cell state of row `n` at `j`. -/
theorem c0_at (n : Fin 4096) (j : Fin 512) :
    val_main_v39 (F := Ideal) x0 x1 x2 x3 x4 x5 x6 (ix2 n j) = (Cert.Cell.rowAt x0 x1 x2 x3 x4 x5 x6 x7 x8 x9 x10 n).c0 j := by
  rw [val_main_v39_apply, val_main_v30_apply, val_main_v38_apply, val_main_v37_apply, sf0_at x0 x1 x2 x3 x4 x5 x6 x7 x8 x9 x10, cel0_at x0 x1 x2 x3 x4 x5 x6 x7 x8 x9 x10, si0_at x0 x1 x2 x3 x4 x5 x6 x7 x8 x9 x10, gg0_at x0 x1 x2 x3 x4 x5 x6 x7 x8 x9 x10]
  rfl

/-- Layer 0's new hidden state of row `n` at `j`. -/
theorem h0_at (n : Fin 4096) (j : Fin 512) :
    val_main_v47 (F := Ideal) x0 x1 x2 x3 x4 x5 x6 (ix2 n j) = (Cert.Cell.rowAt x0 x1 x2 x3 x4 x5 x6 x7 x8 x9 x10 n).h0 j := by
  rw [val_main_v47_apply, val_main_v46_apply, so0_at x0 x1 x2 x3 x4 x5 x6 x7 x8 x9 x10, c0_at x0 x1 x2 x3 x4 x5 x6 x7 x8 x9 x10]
  rfl

/-! ## Layer 1 -/

/-- Layer 0's new hidden state times the transposed input weights of layer 1. -/
theorem dotx1_at (n : Fin 4096) (q : Fin 2048) :
    val_main_v49 (F := Ideal) x0 x1 x2 x3 x4 x5 x6 x7 (ix2 n q) = ∑ k : Fin 512, (Cert.Cell.rowAt x0 x1 x2 x3 x4 x5 x6 x7 x8 x9 x10 n).h0 k * x7 (ix2 q k) := by
  rw [val_main_v49_apply]
  refine Finset.sum_congr rfl fun k _ => ?_
  have el : lidx_main_v49 (ix2 n q) k = ix2 n k := funext fun a => Fin.ext (by match a with | ⟨0, _⟩ => rfl | ⟨1, _⟩ => rfl)
  have er : idx_main_v48 (ridx_main_v49 (ix2 n q) k) = ix2 q k := funext fun a => Fin.ext (by match a with | ⟨0, _⟩ => rfl | ⟨1, _⟩ => rfl)
  rw [val_main_v48_apply, el, er, h0_at x0 x1 x2 x3 x4 x5 x6 x7 x8 x9 x10]

/-- Layer 1's hidden state times its transposed recurrent weights. -/
theorem doth1_at (n : Fin 4096) (q : Fin 2048) :
    val_main_v56 (F := Ideal) x1 x2 x8 (ix2 n q) = ∑ k : Fin 512, (Cert.Cell.rowAt x0 x1 x2 x3 x4 x5 x6 x7 x8 x9 x10 n).s (Cert.Cell.colF k) * x8 (ix2 q k) := by
  rw [val_main_v56_apply]
  refine Finset.sum_congr rfl fun k _ => ?_
  have el : lidx_main_v56 (ix2 n q) k = ix2 n k := funext fun a => Fin.ext (by match a with | ⟨0, _⟩ => rfl | ⟨1, _⟩ => rfl)
  have er : idx_main_v55 (ridx_main_v56 (ix2 n q) k) = ix2 q k := funext fun a => Fin.ext (by match a with | ⟨0, _⟩ => rfl | ⟨1, _⟩ => rfl)
  rw [val_main_v55_apply, el, er, hid1_at x0 x1 x2 x3 x4 x5 x6 x7 x8 x9 x10]

/-- Layer 1's input bias, broadcast over the rows. -/
theorem bi1_at (n : Fin 4096) (q : Fin 2048) : val_main_v51 (F := Ideal) x9 (ix2 n q) = x9 (ix1 q) := by
  have e : idx_main_v50 (idx_main_v51 (ix2 n q)) = ix1 q := funext fun a => Fin.ext (by match a with | ⟨0, _⟩ => rfl)
  rw [val_main_v51_apply, val_main_v50_apply, e]

/-- Layer 1's recurrent bias, broadcast over the rows. -/
theorem bh1_at (n : Fin 4096) (q : Fin 2048) : val_main_v59 (F := Ideal) x10 (ix2 n q) = x10 (ix1 q) := by
  have e : idx_main_v58 (idx_main_v59 (ix2 n q)) = ix1 q := funext fun a => Fin.ext (by match a with | ⟨0, _⟩ => rfl)
  rw [val_main_v59_apply, val_main_v58_apply, e]

/-- Layer 1's gate pre-activations of row `n` at column `q`. -/
theorem g1_at (n : Fin 4096) (q : Fin 2048) :
    val_main_v60 (F := Ideal) x0 x1 x2 x3 x4 x5 x6 x7 x8 x9 x10 (ix2 n q) = (Cert.Cell.rowAt x0 x1 x2 x3 x4 x5 x6 x7 x8 x9 x10 n).g1 q := by
  rw [val_main_v60_apply, val_main_v57_apply, val_main_v52_apply, dotx1_at x0 x1 x2 x3 x4 x5 x6 x7 x8 x9 x10, bi1_at, doth1_at x0 x1 x2 x3 x4 x5 x6 x7 x8 x9 x10, bh1_at]
  exact Cert.Cell.pre_two_biases (fun k => (Cert.Cell.rowAt x0 x1 x2 x3 x4 x5 x6 x7 x8 x9 x10 n).h0 k) (fun k => (Cert.Cell.rowAt x0 x1 x2 x3 x4 x5 x6 x7 x8 x9 x10 n).s (Cert.Cell.colF k))
    (fun q k => x7 (ix2 q k)) (fun q k => x8 (ix2 q k)) (fun q => x9 (ix1 q)) (fun q => x10 (ix1 q)) q

/-- The input gate's run of columns. -/
theorem gi1_at (n : Fin 4096) (j : Fin 512) :
    val_main_v61 (F := Ideal) x0 x1 x2 x3 x4 x5 x6 x7 x8 x9 x10 (ix2 n j) = (Cert.Cell.rowAt x0 x1 x2 x3 x4 x5 x6 x7 x8 x9 x10 n).g1 (Cert.Cell.colI j) := by
  have e : idx_main_v61 (ix2 n j) = ix2 n (Cert.Cell.colI j) := funext fun a => Fin.ext (by match a with | ⟨0, _⟩ => rfl | ⟨1, _⟩ => rfl)
  rw [val_main_v61_apply, e, g1_at x0 x1 x2 x3 x4 x5 x6 x7 x8 x9 x10]

/-- The forget gate's run of columns. -/
theorem gf1_at (n : Fin 4096) (j : Fin 512) :
    val_main_v62 (F := Ideal) x0 x1 x2 x3 x4 x5 x6 x7 x8 x9 x10 (ix2 n j) = (Cert.Cell.rowAt x0 x1 x2 x3 x4 x5 x6 x7 x8 x9 x10 n).g1 (Cert.Cell.colF j) := by
  have e : idx_main_v62 (ix2 n j) = ix2 n (Cert.Cell.colF j) := funext fun a => Fin.ext (by match a with | ⟨0, _⟩ => rfl | ⟨1, _⟩ => rfl)
  rw [val_main_v62_apply, e, g1_at x0 x1 x2 x3 x4 x5 x6 x7 x8 x9 x10]

/-- The candidate's run of columns. -/
theorem gg1_at (n : Fin 4096) (j : Fin 512) :
    val_main_v63 (F := Ideal) x0 x1 x2 x3 x4 x5 x6 x7 x8 x9 x10 (ix2 n j) = (Cert.Cell.rowAt x0 x1 x2 x3 x4 x5 x6 x7 x8 x9 x10 n).g1 (Cert.Cell.colG j) := by
  have e : idx_main_v63 (ix2 n j) = ix2 n (Cert.Cell.colG j) := funext fun a => Fin.ext (by match a with | ⟨0, _⟩ => rfl | ⟨1, _⟩ => rfl)
  rw [val_main_v63_apply, e, g1_at x0 x1 x2 x3 x4 x5 x6 x7 x8 x9 x10]

/-- The output gate's run of columns. -/
theorem go1_at (n : Fin 4096) (j : Fin 512) :
    val_main_v64 (F := Ideal) x0 x1 x2 x3 x4 x5 x6 x7 x8 x9 x10 (ix2 n j) = (Cert.Cell.rowAt x0 x1 x2 x3 x4 x5 x6 x7 x8 x9 x10 n).g1 (Cert.Cell.colO j) := by
  have e : idx_main_v64 (ix2 n j) = ix2 n (Cert.Cell.colO j) := funext fun a => Fin.ext (by match a with | ⟨0, _⟩ => rfl | ⟨1, _⟩ => rfl)
  rw [val_main_v64_apply, e, g1_at x0 x1 x2 x3 x4 x5 x6 x7 x8 x9 x10]

/-- The forget gate. -/
theorem sf1_at (n : Fin 4096) (j : Fin 512) :
    val_main_v70 (F := Ideal) x0 x1 x2 x3 x4 x5 x6 x7 x8 x9 x10 (ix2 n j) = Cert.Cell.sg ((Cert.Cell.rowAt x0 x1 x2 x3 x4 x5 x6 x7 x8 x9 x10 n).g1 (Cert.Cell.colF j)) := by
  rw [val_main_v70_apply, val_main_v69_apply, val_main_cst_7_apply, val_main_v68_apply, val_main_v67_apply, val_main_cst_6_apply, val_main_v66_apply, val_main_v65_apply, gf1_at x0 x1 x2 x3 x4 x5 x6 x7 x8 x9 x10]
  exact Cert.Cell.div_exp_eq_sg _

/-- The input gate. -/
theorem si1_at (n : Fin 4096) (j : Fin 512) :
    val_main_v79 (F := Ideal) x0 x1 x2 x3 x4 x5 x6 x7 x8 x9 x10 (ix2 n j) = Cert.Cell.sg ((Cert.Cell.rowAt x0 x1 x2 x3 x4 x5 x6 x7 x8 x9 x10 n).g1 (Cert.Cell.colI j)) := by
  rw [val_main_v79_apply, val_main_v78_apply, val_main_cst_9_apply, val_main_v77_apply, val_main_v76_apply, val_main_cst_8_apply, val_main_v75_apply, val_main_v74_apply, gi1_at x0 x1 x2 x3 x4 x5 x6 x7 x8 x9 x10]
  exact Cert.Cell.div_exp_eq_sg _

/-- The output gate. -/
theorem so1_at (n : Fin 4096) (j : Fin 512) :
    val_main_v88 (F := Ideal) x0 x1 x2 x3 x4 x5 x6 x7 x8 x9 x10 (ix2 n j) = Cert.Cell.sg ((Cert.Cell.rowAt x0 x1 x2 x3 x4 x5 x6 x7 x8 x9 x10 n).g1 (Cert.Cell.colO j)) := by
  rw [val_main_v88_apply, val_main_v87_apply, val_main_cst_11_apply, val_main_v86_apply, val_main_v85_apply, val_main_cst_10_apply, val_main_v84_apply, val_main_v83_apply, go1_at x0 x1 x2 x3 x4 x5 x6 x7 x8 x9 x10]
  exact Cert.Cell.div_exp_eq_sg _

/-- Layer 1's new cell state of row `n` at `j`. -/
theorem c1_at (n : Fin 4096) (j : Fin 512) :
    val_main_v82 (F := Ideal) x0 x1 x2 x3 x4 x5 x6 x7 x8 x9 x10 (ix2 n j) = (Cert.Cell.rowAt x0 x1 x2 x3 x4 x5 x6 x7 x8 x9 x10 n).c1 j := by
  rw [val_main_v82_apply, val_main_v73_apply, val_main_v81_apply, val_main_v80_apply, sf1_at x0 x1 x2 x3 x4 x5 x6 x7 x8 x9 x10, cel1_at x0 x1 x2 x3 x4 x5 x6 x7 x8 x9 x10, si1_at x0 x1 x2 x3 x4 x5 x6 x7 x8 x9 x10, gg1_at x0 x1 x2 x3 x4 x5 x6 x7 x8 x9 x10]
  rfl

/-- Layer 1's new hidden state of row `n` at `j`. -/
theorem h1_at (n : Fin 4096) (j : Fin 512) :
    val_main_v90 (F := Ideal) x0 x1 x2 x3 x4 x5 x6 x7 x8 x9 x10 (ix2 n j) = (Cert.Cell.rowAt x0 x1 x2 x3 x4 x5 x6 x7 x8 x9 x10 n).h1 j := by
  rw [val_main_v90_apply, val_main_v89_apply, so1_at x0 x1 x2 x3 x4 x5 x6 x7 x8 x9 x10, c1_at x0 x1 x2 x3 x4 x5 x6 x7 x8 x9 x10]
  rfl

/-! ## The two results -/

/-- The reference's output is the second layer's new hidden state, row by row. -/
theorem out_eq :
    Cert.ReferenceIdeal.Read.val_main_v90 (F := Ideal) x0 x1 x2 x3 x4 x5 x6 x7 x8 x9 x10 = Cert.Cell.outArr x0 x1 x2 x3 x4 x5 x6 x7 x8 x9 x10 := by
  funext i
  obtain ⟨n, j, rfl⟩ : ∃ (n : Fin 4096) (j : Fin 512), i = ix2 n j := ⟨i 0, i 1, eq_ix2 i⟩
  exact h1_at x0 x1 x2 x3 x4 x5 x6 x7 x8 x9 x10 n j

/-- Off the joined axis, a piece's index `(0, n, k)` has the coordinates of the whole's `(l, n, k)`. -/
theorem off_axis (l : Fin 4) (n : Fin 4096) (k : Fin 512) (b : Fin S1x4096x512.rank)
    (hb : b.cast (rfl : S1x4096x512.rank = S4x4096x512.rank) ≠ (0 : Fin S4x4096x512.rank)) :
    ((ix3 (0 : Fin 1) n k : S1x4096x512.Idx) b).val
      = ((ix3 l n k : S4x4096x512.Idx) (b.cast (rfl : S1x4096x512.rank = S4x4096x512.rank))).val := by
  match b with
  | ⟨0, _⟩ => exact absurd rfl hb
  | ⟨1, _⟩ => rfl
  | ⟨2, _⟩ => rfl

section Pieces

variable {α : Type} (y0 y1 y2 y3 : S1x4096x512.Idx → α)
  (h : Shape.Concatenates (([⟨S1x4096x512, y0⟩, ⟨S1x4096x512, y1⟩, ⟨S1x4096x512, y2⟩, ⟨S1x4096x512, y3⟩] :
    List ((s : Shape) × (s.Idx → α))).map (·.1)) S4x4096x512 0)

/-- Four `[1, 4096, 512]` pieces laid end to end along the first axis, read at `(0, n, k)`: the first piece. -/
theorem piece0 (n : Fin 4096) (k : Fin 512) :
    concatenate S4x4096x512 0 [⟨S1x4096x512, y0⟩, ⟨S1x4096x512, y1⟩, ⟨S1x4096x512, y2⟩, ⟨S1x4096x512, y3⟩] h (ix3 (0 : Fin 4) n k)
      = y0 (ix3 (0 : Fin 1) n k) :=
  concatenate_apply_piece 0 _ h (ix3 (0 : Fin 4) n k) 0 (by show 0 < 4; decide) S1x4096x512 y0 rfl rfl 0 rfl (ix3 (0 : Fin 1) n k)
    (off_axis 0 n k) rfl

/-- At `(1, n, k)`: the second piece. -/
theorem piece1 (n : Fin 4096) (k : Fin 512) :
    concatenate S4x4096x512 0 [⟨S1x4096x512, y0⟩, ⟨S1x4096x512, y1⟩, ⟨S1x4096x512, y2⟩, ⟨S1x4096x512, y3⟩] h (ix3 (1 : Fin 4) n k)
      = y1 (ix3 (0 : Fin 1) n k) :=
  concatenate_apply_piece 0 _ h (ix3 (1 : Fin 4) n k) 1 (by show 1 < 4; decide) S1x4096x512 y1 rfl rfl 1 rfl (ix3 (0 : Fin 1) n k)
    (off_axis 1 n k) rfl

/-- At `(2, n, k)`: the third piece. -/
theorem piece2 (n : Fin 4096) (k : Fin 512) :
    concatenate S4x4096x512 0 [⟨S1x4096x512, y0⟩, ⟨S1x4096x512, y1⟩, ⟨S1x4096x512, y2⟩, ⟨S1x4096x512, y3⟩] h (ix3 (2 : Fin 4) n k)
      = y2 (ix3 (0 : Fin 1) n k) :=
  concatenate_apply_piece 0 _ h (ix3 (2 : Fin 4) n k) 2 (by show 2 < 4; decide) S1x4096x512 y2 rfl rfl 2 rfl (ix3 (0 : Fin 1) n k)
    (off_axis 2 n k) rfl

/-- At `(3, n, k)`: the fourth piece. -/
theorem piece3 (n : Fin 4096) (k : Fin 512) :
    concatenate S4x4096x512 0 [⟨S1x4096x512, y0⟩, ⟨S1x4096x512, y1⟩, ⟨S1x4096x512, y2⟩, ⟨S1x4096x512, y3⟩] h (ix3 (3 : Fin 4) n k)
      = y3 (ix3 (0 : Fin 1) n k) :=
  concatenate_apply_piece 0 _ h (ix3 (3 : Fin 4) n k) 3 (by show 3 < 4; decide) S1x4096x512 y3 rfl rfl 3 rfl (ix3 (0 : Fin 1) n k)
    (off_axis 3 n k) rfl

end Pieces

/-- The reference's new state of row `n`, slot `l`, entry `k`. -/
theorem slot_at (n : Fin 4096) (l : Fin 4) (k : Fin 512) :
    val_main_v96 (F := Ideal) x0 x1 x2 x3 x4 x5 x6 x7 x8 x9 x10 (ix3 n l k) = (Cert.Cell.rowAt x0 x1 x2 x3 x4 x5 x6 x7 x8 x9 x10 n).slot l k := by
  have e : idx_main_v96 (ix3 n l k) = ix3 l n k := funext fun a => Fin.ext (by match a with | ⟨0, _⟩ => rfl | ⟨1, _⟩ => rfl | ⟨2, _⟩ => rfl)
  rw [val_main_v96_apply, e]
  unfold val_main_v95
  match l with
  | ⟨0, _⟩ =>
    show concatenate S4x4096x512 0 _ _ (ix3 (0 : Fin 4) n k) = (Cert.Cell.rowAt x0 x1 x2 x3 x4 x5 x6 x7 x8 x9 x10 n).h0 k
    have e' : idx_main_v91 (ix3 (0 : Fin 1) n k) = ix2 n k := funext fun a => Fin.ext (by match a with | ⟨0, _⟩ => rfl | ⟨1, _⟩ => rfl)
    rw [piece0, val_main_v91_apply, e']
    exact h0_at x0 x1 x2 x3 x4 x5 x6 x7 x8 x9 x10 n k
  | ⟨1, _⟩ =>
    show concatenate S4x4096x512 0 _ _ (ix3 (1 : Fin 4) n k) = (Cert.Cell.rowAt x0 x1 x2 x3 x4 x5 x6 x7 x8 x9 x10 n).h1 k
    have e' : idx_main_v92 (ix3 (0 : Fin 1) n k) = ix2 n k := funext fun a => Fin.ext (by match a with | ⟨0, _⟩ => rfl | ⟨1, _⟩ => rfl)
    rw [piece1, val_main_v92_apply, e']
    exact h1_at x0 x1 x2 x3 x4 x5 x6 x7 x8 x9 x10 n k
  | ⟨2, _⟩ =>
    show concatenate S4x4096x512 0 _ _ (ix3 (2 : Fin 4) n k) = (Cert.Cell.rowAt x0 x1 x2 x3 x4 x5 x6 x7 x8 x9 x10 n).c0 k
    have e' : idx_main_v93 (ix3 (0 : Fin 1) n k) = ix2 n k := funext fun a => Fin.ext (by match a with | ⟨0, _⟩ => rfl | ⟨1, _⟩ => rfl)
    rw [piece2, val_main_v93_apply, e']
    exact c0_at x0 x1 x2 x3 x4 x5 x6 x7 x8 x9 x10 n k
  | ⟨3, _⟩ =>
    show concatenate S4x4096x512 0 _ _ (ix3 (3 : Fin 4) n k) = (Cert.Cell.rowAt x0 x1 x2 x3 x4 x5 x6 x7 x8 x9 x10 n).c1 k
    have e' : idx_main_v94 (ix3 (0 : Fin 1) n k) = ix2 n k := funext fun a => Fin.ext (by match a with | ⟨0, _⟩ => rfl | ⟨1, _⟩ => rfl)
    rw [piece3, val_main_v94_apply, e']
    exact c1_at x0 x1 x2 x3 x4 x5 x6 x7 x8 x9 x10 n k

/-- The reference's new state is the four new slots of each row, in the order `[h⁰' | h¹' | c⁰' | c¹']`. -/
theorem hid_eq :
    Cert.ReferenceIdeal.Read.val_main_v96 (F := Ideal) x0 x1 x2 x3 x4 x5 x6 x7 x8 x9 x10 = Cert.Cell.hidArr x0 x1 x2 x3 x4 x5 x6 x7 x8 x9 x10 := by
  funext i
  obtain ⟨n, l, k, rfl⟩ : ∃ (n : Fin 4096) (l : Fin 4) (k : Fin 512), i = ix3 n l k := ⟨i 0, i 1, i 2, eq_ix3 i⟩
  exact slot_at x0 x1 x2 x3 x4 x5 x6 x7 x8 x9 x10 n l k

end Cert.ReferenceIdeal.RefCell

end
-- ==== Proof.lean ====
/-
  A one-step, two-layer LSTM cell over 4096 independent rows with a masked reset of the carried state: the kernel and its
  reference compute the same two arrays on the extended reals.

  Both programs are, row by row, the cell of `Proof/Cell.lean`: per layer the gate pre-activations are two matrix products
  and the biases, the new cell state is `σ(f) · c + σ(i) · tanh(g)`, the new hidden state `σ(o) · tanh(c')`; the output is the
  second layer's new hidden state and the state result the four new states side by side.  They differ in three spellings,
  each an equation that holds at EVERY extended real, so the precondition is never opened: the logistic function as
  `1/2 · (tanh(x/2) + 1)` or as `1 / (1 + exp(-x))` (`Proof/Logistic.lean`); the reset as a product with the mask bit or as a
  choice between the entry and zero (`x · 1 = x`, `x · 0 = 0`); the two biases summed before or after the products
  (commutativity and associativity of the sum).  The kernel works on 8 blocks of 512 rows and on the state flattened to
  2048 columns; `Proof/BlockCell.lean` reads its body at an index, `Proof/KernelArrays.lean` puts the blocks together and reads
  the host's reshapes; `Proof/RefCell.lean` reads the reference's operations at an index.  A change of float format is the
  identity on the extended reals, and a matrix product into a zero accumulator is the plain sum of products on both sides.
-/
import proofs.«101798_g18949395710359_cont_8to1_993_6_alg».proof.Defs
import proofs.«101798_g18949395710359_cont_8to1_993_6_alg».proof.Proof.Gen.Kernel
import proofs.«101798_g18949395710359_cont_8to1_993_6_alg».proof.Proof.Gen.Kernel.Frame
import proofs.«101798_g18949395710359_cont_8to1_993_6_alg».proof.Proof.Gen.KernelIdeal
import proofs.«101798_g18949395710359_cont_8to1_993_6_alg».proof.Proof.Gen.KernelIdeal.Frame
import proofs.«101798_g18949395710359_cont_8to1_993_6_alg».proof.Proof.Gen.ReferenceIdeal
import proofs.«101798_g18949395710359_cont_8to1_993_6_alg».proof.Proof.Gen.Pre_finite_inputs
import proofs.«101798_g18949395710359_cont_8to1_993_6_alg».proof.Proof.Gen.ReferenceIdeal.Run
import proofs.«101798_g18949395710359_cont_8to1_993_6_alg».proof.Proof.Gen.ReferenceIdeal.Read
import proofs.«101798_g18949395710359_cont_8to1_993_6_alg».proof.Proof.KernelArrays
import proofs.«101798_g18949395710359_cont_8to1_993_6_alg».proof.Proof.RefCell
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel (hKernel := Cert.Kernel.Gen.facts) (hPre_finite_inputs := Cert.Pre_finite_inputs.Gen.facts) :=
  fun m ρ _ => Cert.Kernel.Gen.frame m ρ

/-- The idealized kernel runs and keeps its arguments. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and keeps its arguments: its run with the two results dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- Both idealized programs end with the output at the cell's second hidden state and the state result at the four new
    states, row by row, of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Arrays.outA m c, fun c => Cert.KernelIdeal.Arrays.hidA m c,
    Cert.KernelIdeal.Arrays.run m ρ, ?_⟩
  refine (θ_run Cert.ReferenceIdeal.defs _ _).mono (fun _ h c => ⟨?_, ?_, (h c).2.2⟩)
    (Cert.ReferenceIdeal.Value.run (F := Ideal) m' ρ')
  · obtain ⟨g0, g1, g2, g3, g4, g5, g6, g7, g8, g9, g10⟩ := hagree c
    rw [(h c).1, Cert.ReferenceIdeal.Read.val_main_v90_eq, Cert.ReferenceIdeal.RefCell.out_eq, g0, g1, g2, g3, g4, g5, g6, g7, g8, g9, g10]
  · obtain ⟨g0, g1, g2, g3, g4, g5, g6, g7, g8, g9, g10⟩ := hagree c
    rw [(h c).2.1, Cert.ReferenceIdeal.Read.val_main_v96_eq, Cert.ReferenceIdeal.RefCell.hid_eq, g0, g1, g2, g3, g4, g5, g6, g7, g8, g9, g10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
